-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg10 : FVec F S128 .f32) (main_arg11 : FVec F S128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S600000 32) (main_arg2 : IVec S600000 32) (main_arg3 : IVec S600000 32) (main_arg4 : IVec S600000 32) (main_arg5 : IVec S600000 32) (main_arg6 : IVec S600000 32) (main_arg7 : FVec F S128x128 .f32) (main_arg8 : FVec F S128x128 .f32) (main_arg9 : FVec F S128x128 .f32) (main_arg10 : FVec F S128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg7
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_arg11 main_arg12 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S1x128x128 : Shape := ⟨3, ![1, 128, 128]⟩
abbrev S3x128x128 : Shape := ⟨3, ![3, 128, 128]⟩
abbrev S3x50000x128 : Shape := ⟨3, ![3, 50000, 128]⟩
abbrev S2000x128 : Shape := ⟨2, ![2000, 128]⟩
abbrev S1x2000x128 : Shape := ⟨3, ![1, 2000, 128]⟩
abbrev S1x50000x128 : Shape := ⟨3, ![1, 50000, 128]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S2000x1 : Shape := ⟨2, ![2000, 1]⟩
abbrev S1x128 : Shape := ⟨2, ![1, 128]⟩

abbrev nBuf : Space → Nat
  | .hbm => 157
  | .vmem => 23
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S600000, .i32⟩
  | 4 => ⟨S600000, .i32⟩
  | 5 => ⟨S600000, .i32⟩
  | 6 => ⟨S600000, .i32⟩
  | 7 => ⟨S128x128, .f32⟩
  | 8 => ⟨S128x128, .f32⟩
  | 9 => ⟨S128x128, .f32⟩
  | 10 => ⟨S128, .f32⟩
  | 11 => ⟨S128, .f32⟩
  | 12 => ⟨S128, .f32⟩
  | 13 => ⟨S1x128x128, .f32⟩
  | 14 => ⟨S1x128x128, .f32⟩
  | 15 => ⟨S1x128x128, .f32⟩
  | 16 => ⟨S3x128x128, .f32⟩
  | 17 => ⟨S3x50000x128, .f32⟩
  | 18 => ⟨S1x50000x128, .f32⟩
  | 19 => ⟨S50000x128, .f32⟩
  | 20 => ⟨S1x50000x128, .f32⟩
  | 21 => ⟨S50000x128, .f32⟩
  | 22 => ⟨S1x50000x128, .f32⟩
  | 23 => ⟨S50000x128, .f32⟩
  | 24 => ⟨S_, .f32⟩
  | 25 => ⟨S600000, .f32⟩
  | 26 => ⟨S_, .f32⟩
  | 27 => ⟨S50000, .f32⟩
  | 28 => ⟨S600000x1, .i32⟩
  | 29 => ⟨S50000, .f32⟩
  | 30 => ⟨S_, .f32⟩
  | 31 => ⟨S50000, .f32⟩
  | 32 => ⟨S600000x1, .i32⟩
  | 33 => ⟨S50000, .f32⟩
  | 34 => ⟨S_, .f32⟩
  | 35 => ⟨S50000, .f32⟩
  | 36 => ⟨S50000, .f32⟩
  | 37 => ⟨S50000, .f32⟩
  | 38 => ⟨S_, .f32⟩
  | 39 => ⟨S50000, .f32⟩
  | 40 => ⟨S50000, .f32⟩
  | 41 => ⟨S50000, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000, .f32⟩
  | 60 => ⟨S600000x1, .f32⟩
  | 61 => ⟨S600000x128, .f32⟩
  | 62 => ⟨S600000x128, .f32⟩
  | 63 => ⟨S_, .f32⟩
  | 64 => ⟨S50000x128, .f32⟩
  | 65 => ⟨S600000x1, .i32⟩
  | 66 => ⟨S50000x128, .f32⟩
  | 67 => ⟨S_, .f32⟩
  | 68 => ⟨S600000, .f32⟩
  | 69 => ⟨S_, .f32⟩
  | 70 => ⟨S50000, .f32⟩
  | 71 => ⟨S600000x1, .i32⟩
  | 72 => ⟨S50000, .f32⟩
  | 73 => ⟨S_, .f32⟩
  | 74 => ⟨S50000, .f32⟩
  | 75 => ⟨S600000x1, .i32⟩
  | 76 => ⟨S50000, .f32⟩
  | 77 => ⟨S_, .f32⟩
  | 78 => ⟨S50000, .f32⟩
  | 79 => ⟨S50000, .f32⟩
  | 80 => ⟨S50000, .f32⟩
  | 81 => ⟨S_, .f32⟩
  | 82 => ⟨S50000, .f32⟩
  | 83 => ⟨S50000, .f32⟩
  | 84 => ⟨S50000, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x128, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000, .f32⟩
  | 103 => ⟨S600000x1, .f32⟩
  | 104 => ⟨S600000x128, .f32⟩
  | 105 => ⟨S600000x128, .f32⟩
  | 106 => ⟨S_, .f32⟩
  | 107 => ⟨S50000x128, .f32⟩
  | 108 => ⟨S600000x1, .i32⟩
  | 109 => ⟨S50000x128, .f32⟩
  | 110 => ⟨S_, .f32⟩
  | 111 => ⟨S600000, .f32⟩
  | 112 => ⟨S_, .f32⟩
  | 113 => ⟨S50000, .f32⟩
  | 114 => ⟨S600000x1, .i32⟩
  | 115 => ⟨S50000, .f32⟩
  | 116 => ⟨S_, .f32⟩
  | 117 => ⟨S50000, .f32⟩
  | 118 => ⟨S600000x1, .i32⟩
  | 119 => ⟨S50000, .f32⟩
  | 120 => ⟨S_, .f32⟩
  | 121 => ⟨S50000, .f32⟩
  | 122 => ⟨S50000, .f32⟩
  | 123 => ⟨S50000, .f32⟩
  | 124 => ⟨S_, .f32⟩
  | 125 => ⟨S50000, .f32⟩
  | 126 => ⟨S50000, .f32⟩
  | 127 => ⟨S50000, .f32⟩
  | _ => ⟨S50000x128, .f32⟩

abbrev hbmTy0_1 (i : Nat) : BufTy := match i % 128 with
  | 0 => ⟨S_, .i32⟩
  | 1 => ⟨S600000, .i32⟩
  | 2 => ⟨S600000, .i1⟩
  | 3 => ⟨S_, .i32⟩
  | 4 => ⟨S600000, .i32⟩
  | 5 => ⟨S600000, .i32⟩
  | 6 => ⟨S600000, .i32⟩
  | 7 => ⟨S600000x1, .i32⟩
  | 8 => ⟨S600000x128, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000, .f32⟩
  | 18 => ⟨S600000x1, .f32⟩
  | 19 => ⟨S600000x128, .f32⟩
  | 20 => ⟨S600000x128, .f32⟩
  | 21 => ⟨S_, .f32⟩
  | 22 => ⟨S50000x128, .f32⟩
  | 23 => ⟨S600000x1, .i32⟩
  | 24 => ⟨S50000x128, .f32⟩
  | 25 => ⟨S50000x1, .f32⟩
  | 26 => ⟨S50000x1, .f32⟩
  | 27 => ⟨S50000x1, .f32⟩
  | 28 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S1x128x128, .f32⟩
  | .local _ .vmem, ⟨3, _⟩ => ⟨S1x128x128, .f32⟩
  | .local _ .vmem, ⟨4, _⟩ => ⟨S1x2000x128, .f32⟩
  | .local _ .vmem, ⟨5, _⟩ => ⟨S1x2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S2000x1, .f32⟩
  | .local _ .vmem, ⟨18, _⟩ => ⟨S128, .f32⟩
  | .local _ .vmem, ⟨19, _⟩ => ⟨S128, .f32⟩
  | .local _ .vmem, ⟨20, _⟩ => ⟨S128, .f32⟩
  | .local _ .vmem, ⟨21, _⟩ => ⟨S2000x128, .f32⟩
  | .local _ .vmem, ⟨22, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_c_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_17 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_18 : Ref sig .tc := ⟨.hbm, 110, rfl⟩
abbrev main_v77 : Ref sig .tc := ⟨.hbm, 111, rfl⟩
abbrev main_cst_19 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_20 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_21 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_22 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_23 : Ref sig .tc := ⟨.hbm, 128, rfl⟩
abbrev main_v90 : Ref sig .tc := ⟨.hbm, 129, rfl⟩
abbrev main_v91 : Ref sig .tc := ⟨.hbm, 130, rfl⟩
abbrev main_c_24 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_25 : Ref sig .tc := ⟨.hbm, 137, rfl⟩
abbrev main_v97 : Ref sig .tc := ⟨.hbm, 138, rfl⟩
abbrev main_v98 : Ref sig .tc := ⟨.hbm, 139, rfl⟩
abbrev main_c_26 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_27 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨2, ![25, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S128x128_S1x128x128_1_2 : S128x128.BroadcastsInDim S1x128x128 (![1, 2] : Fin 2 → Fin S1x128x128.rank)
  concatenates_S1x128x128_S1x128x128_S1x128x128_S3x128x128_d0 : Shape.Concatenates [S1x128x128, S1x128x128, S1x128x128] S3x128x128 0
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  shapeCasts_S2000x128_S1x2000x128 : S2000x128.ShapeCasts S1x2000x128
  slices_S3x50000x128_S1x50000x128_0_0_0 : S3x50000x128.Slices ![0, 0, 0] S1x50000x128
  shapeCasts_S1x50000x128_S50000x128 : S1x50000x128.ShapeCasts S50000x128
  slices_S3x50000x128_S1x50000x128_1_0_0 : S3x50000x128.Slices ![1, 0, 0] S1x50000x128
  slices_S3x50000x128_S1x50000x128_2_0_0 : S3x50000x128.Slices ![2, 0, 0] S1x50000x128
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S50000_S50000x1 : S50000.ShapeCasts S50000x1
  inb_S128_S128_0 : ∀ a, (![0] : Fin 1 → Nat) a + S128.size a ≤ S128.size a
  h_S128 : 0 < S128.numel
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  broadcasts_S1x128_S2000x128 : S1x128.Broadcasts S2000x128
  dot_S2000x128_S128x128_S2000x128_1_0_0_1_n_n_wf : DotDims.WF S2000x128 S128x128 S2000x128 [1] [0] [0] [1] [] []
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  gather_S50000_S600000x1_S600000_n_0_n_n_0_1_1_wf : GatherDims.WF S50000 S600000x1 S600000 [] [0] [] [0] [] 1 ![1]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S3x128x128.size a
  hwx0_1 : ∀ i : grid0.Coords, EltTy.bits .f32 = 32 ∨ (Rect.block (s := S3x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2000x128.size a ≤ S3x50000x128.size a
  hwx0_2 : ∀ i : grid0.Coords, EltTy.bits .f32 = 32 ∨ (Rect.block (s := S3x50000x128) S1x2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S50000x1.size a
  hwx1_5 : ∀ i : grid1.Coords, EltTy.bits .f32 = 32 ∨ (Rect.block (s := S50000x1) S2000x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v76) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v109) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v110) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v111) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v112) S2000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v113) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩

abbrev nBuf : Space → Nat
  | .hbm => 177
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S600000, .i32⟩
  | 4 => ⟨S600000, .i32⟩
  | 5 => ⟨S600000, .i32⟩
  | 6 => ⟨S600000, .i32⟩
  | 7 => ⟨S128x128, .f32⟩
  | 8 => ⟨S128x128, .f32⟩
  | 9 => ⟨S128x128, .f32⟩
  | 10 => ⟨S128, .f32⟩
  | 11 => ⟨S128, .f32⟩
  | 12 => ⟨S128, .f32⟩
  | 13 => ⟨S_, .f32⟩
  | 14 => ⟨S600000, .f32⟩
  | 15 => ⟨S_, .f32⟩
  | 16 => ⟨S50000, .f32⟩
  | 17 => ⟨S600000x1, .i32⟩
  | 18 => ⟨S50000, .f32⟩
  | 19 => ⟨S_, .f32⟩
  | 20 => ⟨S50000, .f32⟩
  | 21 => ⟨S600000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .f32⟩
  | 28 => ⟨S50000, .f32⟩
  | 29 => ⟨S50000, .f32⟩
  | 30 => ⟨S50000, .f32⟩
  | 31 => ⟨S50000x128, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000, .f32⟩
  | 50 => ⟨S600000x1, .f32⟩
  | 51 => ⟨S600000x128, .f32⟩
  | 52 => ⟨S600000x128, .f32⟩
  | 53 => ⟨S_, .f32⟩
  | 54 => ⟨S50000x128, .f32⟩
  | 55 => ⟨S600000x1, .i32⟩
  | 56 => ⟨S50000x128, .f32⟩
  | 57 => ⟨S50000x1, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S_, .f32⟩
  | 67 => ⟨S600000, .f32⟩
  | 68 => ⟨S_, .f32⟩
  | 69 => ⟨S50000, .f32⟩
  | 70 => ⟨S600000x1, .i32⟩
  | 71 => ⟨S50000, .f32⟩
  | 72 => ⟨S_, .f32⟩
  | 73 => ⟨S50000, .f32⟩
  | 74 => ⟨S600000x1, .i32⟩
  | 75 => ⟨S50000, .f32⟩
  | 76 => ⟨S_, .f32⟩
  | 77 => ⟨S50000, .f32⟩
  | 78 => ⟨S50000, .f32⟩
  | 79 => ⟨S50000, .f32⟩
  | 80 => ⟨S_, .f32⟩
  | 81 => ⟨S50000, .f32⟩
  | 82 => ⟨S50000, .f32⟩
  | 83 => ⟨S50000, .f32⟩
  | 84 => ⟨S50000x128, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x128, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000, .f32⟩
  | 103 => ⟨S600000x1, .f32⟩
  | 104 => ⟨S600000x128, .f32⟩
  | 105 => ⟨S600000x128, .f32⟩
  | 106 => ⟨S_, .f32⟩
  | 107 => ⟨S50000x128, .f32⟩
  | 108 => ⟨S600000x1, .i32⟩
  | 109 => ⟨S50000x128, .f32⟩
  | 110 => ⟨S50000x1, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S_, .f32⟩
  | 120 => ⟨S600000, .f32⟩
  | 121 => ⟨S_, .f32⟩
  | 122 => ⟨S50000, .f32⟩
  | 123 => ⟨S600000x1, .i32⟩
  | 124 => ⟨S50000, .f32⟩
  | 125 => ⟨S_, .f32⟩
  | 126 => ⟨S50000, .f32⟩
  | 127 => ⟨S600000x1, .i32⟩
  | _ => ⟨S50000x128, .f32⟩

abbrev hbmTy0_1 (i : Nat) : BufTy := match i % 128 with
  | 0 => ⟨S50000, .f32⟩
  | 1 => ⟨S_, .f32⟩
  | 2 => ⟨S50000, .f32⟩
  | 3 => ⟨S50000, .f32⟩
  | 4 => ⟨S50000, .f32⟩
  | 5 => ⟨S_, .f32⟩
  | 6 => ⟨S50000, .f32⟩
  | 7 => ⟨S50000, .f32⟩
  | 8 => ⟨S50000, .f32⟩
  | 9 => ⟨S50000x128, .f32⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S600000x128, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000, .f32⟩
  | 28 => ⟨S600000x1, .f32⟩
  | 29 => ⟨S600000x128, .f32⟩
  | 30 => ⟨S600000x128, .f32⟩
  | 31 => ⟨S_, .f32⟩
  | 32 => ⟨S50000x128, .f32⟩
  | 33 => ⟨S600000x1, .i32⟩
  | 34 => ⟨S50000x128, .f32⟩
  | 35 => ⟨S50000x1, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x128, .f32⟩
  | 45 => ⟨S50000x128, .f32⟩
  | 46 => ⟨S_, .f32⟩
  | 47 => ⟨S50000x128, .f32⟩
  | 48 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call0_cst : Ref sig .tc := ⟨.hbm, 63, rfl⟩
abbrev main_call0_v0 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_12 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_13 : Ref sig .tc := ⟨.hbm, 85, rfl⟩
abbrev main_v55 : Ref sig .tc := ⟨.hbm, 86, rfl⟩
abbrev main_v56 : Ref sig .tc := ⟨.hbm, 87, rfl⟩
abbrev main_c_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_15 : Ref sig .tc := ⟨.hbm, 94, rfl⟩
abbrev main_v62 : Ref sig .tc := ⟨.hbm, 95, rfl⟩
abbrev main_v63 : Ref sig .tc := ⟨.hbm, 96, rfl⟩
abbrev main_c_16 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_17 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call1_cst : Ref sig .tc := ⟨.hbm, 116, rfl⟩
abbrev main_call1_v0 : Ref sig .tc := ⟨.hbm, 117, rfl⟩
abbrev main_v81 : Ref sig .tc := ⟨.hbm, 118, rfl⟩
abbrev main_cst_18 : Ref sig .tc := ⟨.hbm, 119, rfl⟩
abbrev main_v82 : Ref sig .tc := ⟨.hbm, 120, rfl⟩
abbrev main_cst_19 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_20 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_21 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_22 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c_23 : Ref sig .tc := ⟨.hbm, 138, rfl⟩
abbrev main_v96 : Ref sig .tc := ⟨.hbm, 139, rfl⟩
abbrev main_v97 : Ref sig .tc := ⟨.hbm, 140, rfl⟩
abbrev main_c_24 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_c_25 : Ref sig .tc := ⟨.hbm, 147, rfl⟩
abbrev main_v103 : Ref sig .tc := ⟨.hbm, 148, rfl⟩
abbrev main_v104 : Ref sig .tc := ⟨.hbm, 149, rfl⟩
abbrev main_c_26 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_27 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_call2_cst : Ref sig .tc := ⟨.hbm, 169, rfl⟩
abbrev main_call2_v0 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_28 : Ref sig .tc := ⟨.hbm, 174, rfl⟩
abbrev main_v125 : Ref sig .tc := ⟨.hbm, 175, rfl⟩
abbrev main_v126 : Ref sig .tc := ⟨.hbm, 176, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  gather_S50000_S600000x1_S600000_n_0_n_n_0_1_1_wf : GatherDims.WF S50000 S600000x1 S600000 [] [0] [] [0] [] 1 ![1]
  scatter_S50000x128_S600000x1_S600000x128_1_0_0_1_wf : ScatterDims.WF S50000x128 S600000x1 S600000x128 [1] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KRegions.lean ====
/-
  The two kernels of the relational graph convolution, each run on its staging buffers at one grid point:
  the projection kernel (a block of node rows times one relation's weight matrix) and the combine kernel
  (per node row: aggregate × destination-degree factor + bias, rectified, the three relations averaged).
  For each, what the output block holds after the body as a function of the input blocks, and the body's
  obligation at every grid point, for any contents `V` the region is entered with and any float instance.
-/
import proofs.«179836_j46548855554716_1_alg».proof.Proof.Gen.Kernel.Launch
import proofs.«179836_j46548855554716_1_alg».proof.Proof.Gen.Kernel.Skeleton
import proofs.«179836_j46548855554716_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0: the projection kernel at the entry contents `V`

A point (i, v) of the 25 × 3 grid reads rows 2000·i … 2000·i + 1999 of the node features and the v-th weight
matrix of the stack, and writes the product of the two into block (v, i) of the stacked result. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S2000x128 := Rect.unit (s := S2000x128) ![0, 0] S2000x128.size inb_S2000x128_S2000x128_0_0
abbrev rW0 : Rect S1x128x128 := Rect.unit (s := S1x128x128) ![0, 0, 0] S1x128x128.size inb_S1x128x128_S1x128x128_0_0_0
abbrev rO0 : Rect S1x2000x128 := Rect.unit (s := S1x2000x128) ![0, 0, 0] S1x2000x128.size inb_S1x2000x128_S1x2000x128_0_0_0

/-- The output block after the body: one store of the whole block, the product of the two input blocks. -/
def out0_2 (x0 : Vec F S2000x128 .f32) (x1 : Vec F S1x128x128 .f32) : Vec F S1x2000x128 .f32 :=
  View.canon [⟨rO0, k0_pay1 (View.ld x0 rX0) (View.ld x1 rW0)⟩]

theorem cover0_2 (p0 : Vec F S1x2000x128 .f32) (y : S1x2000x128.Idx) :
    ∃ pc ∈ ([⟨rO0, p0⟩] : List (View.Piece (Elt F) S1x2000x128 .f32)), y ∈ pc.1.set :=
  View.cover_of_tiled [⟨rO0, p0⟩] S1x2000x128.size (by rfl) y

set_option maxHeartbeats 1000000 in
/-- The body on whole staging buffers: the inputs stay, the output buffer ends at `out0_2` of the inputs. -/
theorem sound_kernel0 (c : Dev nD) (E : Set ℕ) (i : grid0.Coords) (arg2 : Memref sig .tc .vmem S2000x128 .f32) (harg2 : arg2.IsWhole)
    (arg3 : Memref sig .tc .vmem S1x128x128 .f32) (harg3 : arg3.IsWhole) (arg4 : Memref sig .tc .vmem S1x2000x128 .f32) (harg4 : arg4.IsWhole)
    (x0 : Vec F S2000x128 .f32) (x1 : Vec F S1x128x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-- Region 0's proof data: the arrays as found; after the body each input buffer at its block and the output
    buffer at `out0_2` of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # Region 1: the combine kernel at the entry contents `V`

Point i of the 25-point grid reads rows 2000·i … 2000·i + 1999 of the three aggregates and of the three
destination-degree columns, the three bias vectors whole, and writes the same rows of the result. -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

abbrev rA1 : Rect S2000x128 := Rect.unit (s := S2000x128) ![0, 0] S2000x128.size inb_S2000x128_S2000x128_0_0
abbrev rN1 : Rect S2000x1 := Rect.unit (s := S2000x1) ![0, 0] S2000x1.size inb_S2000x1_S2000x1_0_0
abbrev rB1 : Rect S128 := Rect.unit (s := S128) ![0] S128.size inb_S128_S128_0

/-- The output block after the body: one store of the whole block, the mean over the three relations of the
    rectified, normalised and biased aggregates. -/
def out1_9 (x0 x1 x2 : Vec F S2000x128 .f32) (x3 x4 x5 : Vec F S2000x1 .f32) (x6 x7 x8 : Vec F S128 .f32) : Vec F S2000x128 .f32 :=
  View.canon [⟨rA1, k1_pay1 (View.ld x6 rB1) (View.ld x7 rB1) (View.ld x8 rB1) (View.ld x0 rA1) (View.ld x3 rN1) (View.ld x1 rA1) (View.ld x4 rN1) (View.ld x2 rA1) (View.ld x5 rN1)⟩]

theorem cover1_9 (p0 : Vec F S2000x128 .f32) (y : S2000x128.Idx) :
    ∃ pc ∈ ([⟨rA1, p0⟩] : List (View.Piece (Elt F) S2000x128 .f32)), y ∈ pc.1.set :=
  View.cover_of_tiled [⟨rA1, p0⟩] S2000x128.size (by rfl) y

set_option maxHeartbeats 2000000 in
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S2000x1 .f32) (harg4 : arg4.IsWhole)
    (arg5 : Memref sig .tc .vmem S2000x1 .f32) (harg5 : arg5.IsWhole) (arg6 : Memref sig .tc .vmem S2000x1 .f32) (harg6 : arg6.IsWhole)
    (arg7 : Memref sig .tc .vmem S128 .f32) (harg7 : arg7.IsWhole) (arg8 : Memref sig .tc .vmem S128 .f32) (harg8 : arg8.IsWhole)
    (arg9 : Memref sig .tc .vmem S128 .f32) (harg9 : arg9.IsWhole) (arg10 : Memref sig .tc .vmem S2000x128 .f32) (harg10 : arg10.IsWhole)
    (x0 x1 x2 : Vec F S2000x128 .f32) (x3 x4 x5 : Vec F S2000x1 .f32) (x6 x7 x8 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out1_9 x0 x1 x2 x3 x4 x5 x6 x7 x8)) -∗ K ⟨⟩))
      ⊢ wp frame (wpE (defs₀ (F := F)) Variants.none c none) E
          (cc1__combine_kernel i arg1 harg1 arg2 harg2 arg3 harg3 arg4 harg4 arg5 harg5 arg6 harg6 arg7 harg7 arg8 harg8 arg9 harg9 arg10 harg10) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-- Region 1's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t
    = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KRun.lean ====
/-
  The whole program as a run of segments: the four host operations that stack the three weight matrices,
  the projection kernel's region, the host stretch that gathers, scales and scatter-adds the messages of the
  three relations (cut where the printed program is cut), and the combine kernel's region. The contents of
  every unscoped buffer at each segment boundary are named (`W0` … `W6`), and the run ends with every
  unscoped buffer at `W6`.
-/
import proofs.«179836_j46548855554716_1_alg».proof.Proof.KRegions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the weight matrices are stacked (the projection region's entry). -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
/-- At the projection region's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three pieces of the host stretch between the regions. -/
abbrev W3 : Dev nD → Valuation τ sig (Elt F) := fun c => StableHlo.after main_part0_ops1 (W2 m ρ c)
abbrev W4 : Dev nD → Valuation τ sig (Elt F) := fun c => StableHlo.after main_part1_ops0 (W3 m ρ c)
abbrev W5 : Dev nD → Valuation τ sig (Elt F) := fun c => StableHlo.after main_part2_ops0 (W4 m ρ c)
abbrev V5 : (c : Dev nD) → (b : Ref sig .tc) → Buf (Elt F) ((c : Thread nD τ).loc b) := fun c b => W5 m ρ c b
/-- At the combine region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem part0_ops0_fresh : (main_part0_ops0 : List (HloOp τ sig (Elt F))).Forall fun op => op.fresh = ∅ := by
  simp only [List.Forall]; repeat' constructor
theorem part0_ops1_fresh : (main_part0_ops1 : List (HloOp τ sig (Elt F))).Forall fun op => op.fresh = ∅ := by
  simp only [List.Forall]; repeat' constructor
theorem part1_ops0_fresh : (main_part1_ops0 : List (HloOp τ sig (Elt F))).Forall fun op => op.fresh = ∅ := by
  simp only [List.Forall]; repeat' constructor
theorem part2_ops0_fresh : (main_part2_ops0 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered with every unscoped buffer at `W1`, left with them at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg main_part0_ops0 main_part0_ops0_sub part0_ops0_fresh (W0 m ρ)),
    .region (reg0 m ρ),
    .host (hseg main_part0_ops1 main_part0_ops1_sub part0_ops1_fresh (W2 m ρ)),
    .host (hseg main_part1_ops0 main_part1_ops0_sub part1_ops0_fresh (W3 m ρ)),
    .host (hseg main_part2_ops0 main_part2_ops0_sub part2_ops0_fresh (W4 m ρ)),
    .region (reg1 m ρ) ]

theorem main_run (c : Dev nD) : main (F := F) c = Pipeline.Seg.run (segs m ρ) := (main_chain_windows c).trans (by chain_rfl)

set_option backward.isDefEq.respectTransparency.types false in
/-- Every weakly fair execution of the program from `m` terminates without a fault, and ends with every unscoped
    buffer of each core at `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.KArgs.lean ====
/-
  No host operation and no region of the program writes an argument array: each argument's buffer, read at the
  end of the run, holds what it held at launch. From the run over the segments this gives the program's frame
  (it terminates, faults nowhere, and leaves its arguments unchanged) and the same run with the result array
  named by the last boundary's contents.
-/
import proofs.«179836_j46548855554716_1_alg».proof.Proof.KRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Two references of the core whose positions lie on either side of 13 differ: the arguments come first. -/
theorem ne_of_low {b y : Ref sig .tc} (hb : b.idx.val < 13) (hy : 13 ≤ y.idx.val) : b ≠ y :=
  fun e => absurd (e ▸ hb) (Nat.not_lt.mpr hy)

theorem keep_part0_ops0 (W : Valuation τ sig (Elt F)) (b : Ref sig .tc) (hb : b.idx.val < 13) :
    StableHlo.after (main_part0_ops0 (F := F)) W (Proc.devRef .tc b) = W (Proc.devRef .tc b) :=
  StableHlo.after_of_forall_not_mem (b := Proc.devRef .tc b) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (ne_of_low hb (by decide))))

theorem keep_part0_ops1 (W : Valuation τ sig (Elt F)) (b : Ref sig .tc) (hb : b.idx.val < 13) :
    StableHlo.after (main_part0_ops1 (F := F)) W (Proc.devRef .tc b) = W (Proc.devRef .tc b) :=
  StableHlo.after_of_forall_not_mem (b := Proc.devRef .tc b) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (ne_of_low hb (by decide))))

theorem keep_part1_ops0 (W : Valuation τ sig (Elt F)) (b : Ref sig .tc) (hb : b.idx.val < 13) :
    StableHlo.after (main_part1_ops0 (F := F)) W (Proc.devRef .tc b) = W (Proc.devRef .tc b) :=
  StableHlo.after_of_forall_not_mem (b := Proc.devRef .tc b) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (ne_of_low hb (by decide))))

theorem keep_part2_ops0 (W : Valuation τ sig (Elt F)) (b : Ref sig .tc) (hb : b.idx.val < 13) :
    StableHlo.after (main_part2_ops0 (F := F)) W (Proc.devRef .tc b) = W (Proc.devRef .tc b) :=
  StableHlo.after_of_forall_not_mem (b := Proc.devRef .tc b) _ _ (List.forall_iff_forall_mem.mp (by
    simp only [main_part2_ops0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (ne_of_low hb (by decide))))

variable (m : (ℓ : Loc nD τ sig) → Buf (Elt F) ℓ) (ρ : Dev nD → PrngReg)

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := keep_part2_ops0 _ main_arg0 (by decide)
    _ = W3 m ρ c (Proc.devRef .tc main_arg0) := keep_part1_ops0 _ main_arg0 (by decide)
    _ = W2 m ρ c (Proc.devRef .tc main_arg0) := keep_part0_ops1 _ main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keep_part0_ops0 _ main_arg0 (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := keep_part2_ops0 _ main_arg1 (by decide)
    _ = W3 m ρ c (Proc.devRef .tc main_arg1) := keep_part1_ops0 _ main_arg1 (by decide)
    _ = W2 m ρ c (Proc.devRef .tc main_arg1) := keep_part0_ops1 _ main_arg1 (by decide)
    _ = W1 m ρ c (Proc.devRef .tc main_arg1) := W2_of_ne m ρ c main_arg1 (by decide)
    _ = W0 m ρ c (Proc.devRef .tc main_arg1) := keep_part0_ops0 _ main_arg1 (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := keep_part2_ops0 _ main_arg2 (by decide)
    _ = W3 m ρ c (Proc.devRef .tc main_arg2) := keep_part1_ops0 _ main_arg2 (by decide)
    _ = W2 m ρ c (Proc.devRef .tc main_arg2) := keep_part0_ops1 _ main_arg2 (by decide)
    _ = W1 m ρ c (Proc.devRef .tc main_arg2) := W2_of_ne m ρ c main_arg2 (by decide)
    _ = W0 m ρ c (Proc.devRef .tc main_arg2) := keep_part0_ops0 _ main_arg2 (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := keep_part2_ops0 _ main_arg3 (by decide)
    _ = W3 m ρ c (Proc.devRef .tc main_arg3) := keep_part1_ops0 _ main_arg3 (by decide)
    _ = W2 m ρ c (Proc.devRef .tc main_arg3) := keep_part0_ops1 _ main_arg3 (by decide)
    _ = W1 m ρ c (Proc.devRef .tc main_arg3) := W2_of_ne m ρ c main_arg3 (by decide)
    _ = W0 m ρ c (Proc.devRef .tc main_arg3) := keep_part0_ops0 _ main_arg3 (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := keep_part2_ops0 _ main_arg4 (by decide)
    _ = W3 m ρ c (Proc.devRef .tc main_arg4) := keep_part1_ops0 _ main_arg4 (by decide)
    _ = W2 m ρ c (Proc.devRef .tc main_arg4) := keep_part0_ops1 _ main_arg4 (by decide)
    _ = W1 m ρ c (Proc.devRef .tc main_arg4) := W2_of_ne m ρ c main_arg4 (by decide)
    _ = W0 m ρ c (Proc.devRef .tc main_arg4) := keep_part0_ops0 _ main_arg4 (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := keep_part2_ops0 _ main_arg5 (by decide)
    _ = W3 m ρ c (Proc.devRef .tc main_arg5) := keep_part1_ops0 _ main_arg5 (by decide)
    _ = W2 m ρ c (Proc.devRef .tc main_arg5) := keep_part0_ops1 _ main_arg5 (by decide)
    _ = W1 m ρ c (Proc.devRef .tc main_arg5) := W2_of_ne m ρ c main_arg5 (by decide)
    _ = W0 m ρ c (Proc.devRef .tc main_arg5) := keep_part0_ops0 _ main_arg5 (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := keep_part2_ops0 _ main_arg6 (by decide)
    _ = W3 m ρ c (Proc.devRef .tc main_arg6) := keep_part1_ops0 _ main_arg6 (by decide)
    _ = W2 m ρ c (Proc.devRef .tc main_arg6) := keep_part0_ops1 _ main_arg6 (by decide)
    _ = W1 m ρ c (Proc.devRef .tc main_arg6) := W2_of_ne m ρ c main_arg6 (by decide)
    _ = W0 m ρ c (Proc.devRef .tc main_arg6) := keep_part0_ops0 _ main_arg6 (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := keep_part2_ops0 _ main_arg7 (by decide)
    _ = W3 m ρ c (Proc.devRef .tc main_arg7) := keep_part1_ops0 _ main_arg7 (by decide)
    _ = W2 m ρ c (Proc.devRef .tc main_arg7) := keep_part0_ops1 _ main_arg7 (by decide)
    _ = W1 m ρ c (Proc.devRef .tc main_arg7) := W2_of_ne m ρ c main_arg7 (by decide)
    _ = W0 m ρ c (Proc.devRef .tc main_arg7) := keep_part0_ops0 _ main_arg7 (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := keep_part2_ops0 _ main_arg8 (by decide)
    _ = W3 m ρ c (Proc.devRef .tc main_arg8) := keep_part1_ops0 _ main_arg8 (by decide)
    _ = W2 m ρ c (Proc.devRef .tc main_arg8) := keep_part0_ops1 _ main_arg8 (by decide)
    _ = W1 m ρ c (Proc.devRef .tc main_arg8) := W2_of_ne m ρ c main_arg8 (by decide)
    _ = W0 m ρ c (Proc.devRef .tc main_arg8) := keep_part0_ops0 _ main_arg8 (by decide)
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := keep_part2_ops0 _ main_arg9 (by decide)
    _ = W3 m ρ c (Proc.devRef .tc main_arg9) := keep_part1_ops0 _ main_arg9 (by decide)
    _ = W2 m ρ c (Proc.devRef .tc main_arg9) := keep_part0_ops1 _ main_arg9 (by decide)
    _ = W1 m ρ c (Proc.devRef .tc main_arg9) := W2_of_ne m ρ c main_arg9 (by decide)
    _ = W0 m ρ c (Proc.devRef .tc main_arg9) := keep_part0_ops0 _ main_arg9 (by decide)
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := (W6_arr m ρ c 6).trans (((dat1 (V5 m ρ) c).arrAt_in 6 rfl _).trans (A_eq1 (V5 m ρ) c 6))
    _ = W4 m ρ c (Proc.devRef .tc main_arg10) := keep_part2_ops0 _ main_arg10 (by decide)
    _ = W3 m ρ c (Proc.devRef .tc main_arg10) := keep_part1_ops0 _ main_arg10 (by decide)
    _ = W2 m ρ c (Proc.devRef .tc main_arg10) := keep_part0_ops1 _ main_arg10 (by decide)
    _ = W1 m ρ c (Proc.devRef .tc main_arg10) := W2_of_ne m ρ c main_arg10 (by decide)
    _ = W0 m ρ c (Proc.devRef .tc main_arg10) := keep_part0_ops0 _ main_arg10 (by decide)
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := (W6_arr m ρ c 7).trans (((dat1 (V5 m ρ) c).arrAt_in 7 rfl _).trans (A_eq1 (V5 m ρ) c 7))
    _ = W4 m ρ c (Proc.devRef .tc main_arg11) := keep_part2_ops0 _ main_arg11 (by decide)
    _ = W3 m ρ c (Proc.devRef .tc main_arg11) := keep_part1_ops0 _ main_arg11 (by decide)
    _ = W2 m ρ c (Proc.devRef .tc main_arg11) := keep_part0_ops1 _ main_arg11 (by decide)
    _ = W1 m ρ c (Proc.devRef .tc main_arg11) := W2_of_ne m ρ c main_arg11 (by decide)
    _ = W0 m ρ c (Proc.devRef .tc main_arg11) := keep_part0_ops0 _ main_arg11 (by decide)
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := (W6_arr m ρ c 8).trans (((dat1 (V5 m ρ) c).arrAt_in 8 rfl _).trans (A_eq1 (V5 m ρ) c 8))
    _ = W4 m ρ c (Proc.devRef .tc main_arg12) := keep_part2_ops0 _ main_arg12 (by decide)
    _ = W3 m ρ c (Proc.devRef .tc main_arg12) := keep_part1_ops0 _ main_arg12 (by decide)
    _ = W2 m ρ c (Proc.devRef .tc main_arg12) := keep_part0_ops1 _ main_arg12 (by decide)
    _ = W1 m ρ c (Proc.devRef .tc main_arg12) := W2_of_ne m ρ c main_arg12 (by decide)
    _ = W0 m ρ c (Proc.devRef .tc main_arg12) := keep_part0_ops0 _ main_arg12 (by decide)
    _ = m ((c : Thread nD τ).loc main_arg12) := rfl

/-- The frame: the program runs to the end from any memory, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c)⟩) (run_all m ρ)

/-- The same run with the result array named: it ends at the last boundary's contents of the output buffer. -/
theorem run_val : θ_run defs (onTc (τ := τ) (main (F := F))) ⟨m, fun _ => 0, ρ⟩ (fun r => ∀ c : Dev nD,
      r.2.mem ((c.tc : Thread nD τ).loc main_v113) = W6 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v113 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c)⟩) (run_all m ρ)

end Cert.Kernel.Hand

end
-- ==== Proof.KIRegions.lean ====
/-
  The two kernels of the relational graph convolution, each run on its staging buffers at one grid point:
  the projection kernel (a block of node rows times one relation's weight matrix) and the combine kernel
  (per node row: aggregate × destination-degree factor + bias, rectified, the three relations averaged).
  For each, what the output block holds after the body as a function of the input blocks, and the body's
  obligation at every grid point, for any contents `V` the region is entered with and any float instance.
-/
import proofs.«179836_j46548855554716_1_alg».proof.Proof.Gen.KernelIdeal.Launch
import proofs.«179836_j46548855554716_1_alg».proof.Proof.Gen.KernelIdeal.Skeleton
import proofs.«179836_j46548855554716_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

/-! # Region 0: the projection kernel at the entry contents `V`

A point (i, v) of the 25 × 3 grid reads rows 2000·i … 2000·i + 1999 of the node features and the v-th weight
matrix of the stack, and writes the product of the two into block (v, i) of the stacked result. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S2000x128 := Rect.unit (s := S2000x128) ![0, 0] S2000x128.size inb_S2000x128_S2000x128_0_0
abbrev rW0 : Rect S1x128x128 := Rect.unit (s := S1x128x128) ![0, 0, 0] S1x128x128.size inb_S1x128x128_S1x128x128_0_0_0
abbrev rO0 : Rect S1x2000x128 := Rect.unit (s := S1x2000x128) ![0, 0, 0] S1x2000x128.size inb_S1x2000x128_S1x2000x128_0_0_0

/-- The output block after the body: one store of the whole block, the product of the two input blocks. -/
def out0_2 (x0 : Vec F S2000x128 .f32) (x1 : Vec F S1x128x128 .f32) : Vec F S1x2000x128 .f32 :=
  View.canon [⟨rO0, k0_pay1 (View.ld x0 rX0) (View.ld x1 rW0)⟩]

theorem cover0_2 (p0 : Vec F S1x2000x128 .f32) (y : S1x2000x128.Idx) :
    ∃ pc ∈ ([⟨rO0, p0⟩] : List (View.Piece (Elt F) S1x2000x128 .f32)), y ∈ pc.1.set :=
  View.cover_of_tiled [⟨rO0, p0⟩] S1x2000x128.size (by rfl) y

set_option maxHeartbeats 1000000 in
/-- The body on whole staging buffers: the inputs stay, the output buffer ends at `out0_2` of the inputs. -/
theorem sound_kernel0 (c : Dev nD) (E : Set ℕ) (i : grid0.Coords) (arg2 : Memref sig .tc .vmem S2000x128 .f32) (harg2 : arg2.IsWhole)
    (arg3 : Memref sig .tc .vmem S1x128x128 .f32) (harg3 : arg3.IsWhole) (arg4 : Memref sig .tc .vmem S1x2000x128 .f32) (harg4 : arg4.IsWhole)
    (x0 : Vec F S2000x128 .f32) (x1 : Vec F S1x128x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-- Region 0's proof data: the arrays as found; after the body each input buffer at its block and the output
    buffer at `out0_2` of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # Region 1: the combine kernel at the entry contents `V`

Point i of the 25-point grid reads rows 2000·i … 2000·i + 1999 of the three aggregates and of the three
destination-degree columns, the three bias vectors whole, and writes the same rows of the result. -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

abbrev rA1 : Rect S2000x128 := Rect.unit (s := S2000x128) ![0, 0] S2000x128.size inb_S2000x128_S2000x128_0_0
abbrev rN1 : Rect S2000x1 := Rect.unit (s := S2000x1) ![0, 0] S2000x1.size inb_S2000x1_S2000x1_0_0
abbrev rB1 : Rect S128 := Rect.unit (s := S128) ![0] S128.size inb_S128_S128_0

/-- The output block after the body: one store of the whole block, the mean over the three relations of the
    rectified, normalised and biased aggregates. -/
def out1_9 (x0 x1 x2 : Vec F S2000x128 .f32) (x3 x4 x5 : Vec F S2000x1 .f32) (x6 x7 x8 : Vec F S128 .f32) : Vec F S2000x128 .f32 :=
  View.canon [⟨rA1, k1_pay1 (View.ld x6 rB1) (View.ld x7 rB1) (View.ld x8 rB1) (View.ld x0 rA1) (View.ld x3 rN1) (View.ld x1 rA1) (View.ld x4 rN1) (View.ld x2 rA1) (View.ld x5 rN1)⟩]

theorem cover1_9 (p0 : Vec F S2000x128 .f32) (y : S2000x128.Idx) :
    ∃ pc ∈ ([⟨rA1, p0⟩] : List (View.Piece (Elt F) S2000x128 .f32)), y ∈ pc.1.set :=
  View.cover_of_tiled [⟨rA1, p0⟩] S2000x128.size (by rfl) y

set_option maxHeartbeats 2000000 in
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S2000x1 .f32) (harg4 : arg4.IsWhole)
    (arg5 : Memref sig .tc .vmem S2000x1 .f32) (harg5 : arg5.IsWhole) (arg6 : Memref sig .tc .vmem S2000x1 .f32) (harg6 : arg6.IsWhole)
    (arg7 : Memref sig .tc .vmem S128 .f32) (harg7 : arg7.IsWhole) (arg8 : Memref sig .tc .vmem S128 .f32) (harg8 : arg8.IsWhole)
    (arg9 : Memref sig .tc .vmem S128 .f32) (harg9 : arg9.IsWhole) (arg10 : Memref sig .tc .vmem S2000x128 .f32) (harg10 : arg10.IsWhole)
    (x0 x1 x2 : Vec F S2000x128 .f32) (x3 x4 x5 : Vec F S2000x1 .f32) (x6 x7 x8 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out1_9 x0 x1 x2 x3 x4 x5 x6 x7 x8)) -∗ K ⟨⟩))
      ⊢ wp frame (wpE (defs₀ (F := F)) Variants.none c none) E
          (cc1__combine_kernel i arg1 harg1 arg2 harg2 arg3 harg3 arg4 harg4 arg5 harg5 arg6 harg6 arg7 harg7 arg8 harg8 arg9 harg9 arg10 harg10) K := by
  simp only [cc1__combine_kernel_eq_skeleton]; unfold cc1__combine_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-- Region 1's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t
    = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIRun.lean ====
/-
  The whole program as a run of segments: the four host operations that stack the three weight matrices,
  the projection kernel's region, the host stretch that gathers, scales and scatter-adds the messages of the
  three relations (cut where the printed program is cut), and the combine kernel's region. The contents of
  every unscoped buffer at each segment boundary are named (`W0` … `W6`), and the run ends with every
  unscoped buffer at `W6`.
-/
import proofs.«179836_j46548855554716_1_alg».proof.Proof.KIRegions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the weight matrices are stacked (the projection region's entry). -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
/-- At the projection region's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three pieces of the host stretch between the regions. -/
abbrev W3 : Dev nD → Valuation τ sig (Elt F) := fun c => StableHlo.after main_part0_ops1 (W2 m ρ c)
abbrev W4 : Dev nD → Valuation τ sig (Elt F) := fun c => StableHlo.after main_part1_ops0 (W3 m ρ c)
abbrev W5 : Dev nD → Valuation τ sig (Elt F) := fun c => StableHlo.after main_part2_ops0 (W4 m ρ c)
abbrev V5 : (c : Dev nD) → (b : Ref sig .tc) → Buf (Elt F) ((c : Thread nD τ).loc b) := fun c b => W5 m ρ c b
/-- At the combine region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem part0_ops0_fresh : (main_part0_ops0 : List (HloOp τ sig (Elt F))).Forall fun op => op.fresh = ∅ := by
  simp only [List.Forall]; repeat' constructor
theorem part0_ops1_fresh : (main_part0_ops1 : List (HloOp τ sig (Elt F))).Forall fun op => op.fresh = ∅ := by
  simp only [List.Forall]; repeat' constructor
theorem part1_ops0_fresh : (main_part1_ops0 : List (HloOp τ sig (Elt F))).Forall fun op => op.fresh = ∅ := by
  simp only [List.Forall]; repeat' constructor
theorem part2_ops0_fresh : (main_part2_ops0 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered with every unscoped buffer at `W1`, left with them at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg main_part0_ops0 main_part0_ops0_sub part0_ops0_fresh (W0 m ρ)),
    .region (reg0 m ρ),
    .host (hseg main_part0_ops1 main_part0_ops1_sub part0_ops1_fresh (W2 m ρ)),
    .host (hseg main_part1_ops0 main_part1_ops0_sub part1_ops0_fresh (W3 m ρ)),
    .host (hseg main_part2_ops0 main_part2_ops0_sub part2_ops0_fresh (W4 m ρ)),
    .region (reg1 m ρ) ]

theorem main_run (c : Dev nD) : main (F := F) c = Pipeline.Seg.run (segs m ρ) := (main_chain_windows c).trans (by chain_rfl)

set_option backward.isDefEq.respectTransparency.types false in
/-- Every weakly fair execution of the program from `m` terminates without a fault, and ends with every unscoped
    buffer of each core at `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KIArgs.lean ====
/-
  No host operation and no region of the program writes an argument array: each argument's buffer, read at the
  end of the run, holds what it held at launch. From the run over the segments this gives the program's frame
  (it terminates, faults nowhere, and leaves its arguments unchanged) and the same run with the result array
  named by the last boundary's contents.
-/
import proofs.«179836_j46548855554716_1_alg».proof.Proof.KIRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- Two references of the core whose positions lie on either side of 13 differ: the arguments come first. -/
theorem ne_of_low {b y : Ref sig .tc} (hb : b.idx.val < 13) (hy : 13 ≤ y.idx.val) : b ≠ y :=
  fun e => absurd (e ▸ hb) (Nat.not_lt.mpr hy)

theorem keep_part0_ops0 (W : Valuation τ sig (Elt F)) (b : Ref sig .tc) (hb : b.idx.val < 13) :
    StableHlo.after (main_part0_ops0 (F := F)) W (Proc.devRef .tc b) = W (Proc.devRef .tc b) :=
  StableHlo.after_of_forall_not_mem (b := Proc.devRef .tc b) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (ne_of_low hb (by decide))))

theorem keep_part0_ops1 (W : Valuation τ sig (Elt F)) (b : Ref sig .tc) (hb : b.idx.val < 13) :
    StableHlo.after (main_part0_ops1 (F := F)) W (Proc.devRef .tc b) = W (Proc.devRef .tc b) :=
  StableHlo.after_of_forall_not_mem (b := Proc.devRef .tc b) _ _ (List.forall_iff_forall_mem.mp (by
    simp only [main_part0_ops1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (ne_of_low hb (by decide))))

theorem keep_part1_ops0 (W : Valuation τ sig (Elt F)) (b : Ref sig .tc) (hb : b.idx.val < 13) :
    StableHlo.after (main_part1_ops0 (F := F)) W (Proc.devRef .tc b) = W (Proc.devRef .tc b) :=
  StableHlo.after_of_forall_not_mem (b := Proc.devRef .tc b) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (ne_of_low hb (by decide))))

theorem keep_part2_ops0 (W : Valuation τ sig (Elt F)) (b : Ref sig .tc) (hb : b.idx.val < 13) :
    StableHlo.after (main_part2_ops0 (F := F)) W (Proc.devRef .tc b) = W (Proc.devRef .tc b) :=
  StableHlo.after_of_forall_not_mem (b := Proc.devRef .tc b) _ _ (List.forall_iff_forall_mem.mp (by
    simp only [main_part2_ops0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (ne_of_low hb (by decide))))

variable (m : (ℓ : Loc nD τ sig) → Buf (Elt F) ℓ) (ρ : Dev nD → PrngReg)

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := keep_part2_ops0 _ main_arg0 (by decide)
    _ = W3 m ρ c (Proc.devRef .tc main_arg0) := keep_part1_ops0 _ main_arg0 (by decide)
    _ = W2 m ρ c (Proc.devRef .tc main_arg0) := keep_part0_ops1 _ main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keep_part0_ops0 _ main_arg0 (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := keep_part2_ops0 _ main_arg1 (by decide)
    _ = W3 m ρ c (Proc.devRef .tc main_arg1) := keep_part1_ops0 _ main_arg1 (by decide)
    _ = W2 m ρ c (Proc.devRef .tc main_arg1) := keep_part0_ops1 _ main_arg1 (by decide)
    _ = W1 m ρ c (Proc.devRef .tc main_arg1) := W2_of_ne m ρ c main_arg1 (by decide)
    _ = W0 m ρ c (Proc.devRef .tc main_arg1) := keep_part0_ops0 _ main_arg1 (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := keep_part2_ops0 _ main_arg2 (by decide)
    _ = W3 m ρ c (Proc.devRef .tc main_arg2) := keep_part1_ops0 _ main_arg2 (by decide)
    _ = W2 m ρ c (Proc.devRef .tc main_arg2) := keep_part0_ops1 _ main_arg2 (by decide)
    _ = W1 m ρ c (Proc.devRef .tc main_arg2) := W2_of_ne m ρ c main_arg2 (by decide)
    _ = W0 m ρ c (Proc.devRef .tc main_arg2) := keep_part0_ops0 _ main_arg2 (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := keep_part2_ops0 _ main_arg3 (by decide)
    _ = W3 m ρ c (Proc.devRef .tc main_arg3) := keep_part1_ops0 _ main_arg3 (by decide)
    _ = W2 m ρ c (Proc.devRef .tc main_arg3) := keep_part0_ops1 _ main_arg3 (by decide)
    _ = W1 m ρ c (Proc.devRef .tc main_arg3) := W2_of_ne m ρ c main_arg3 (by decide)
    _ = W0 m ρ c (Proc.devRef .tc main_arg3) := keep_part0_ops0 _ main_arg3 (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := keep_part2_ops0 _ main_arg4 (by decide)
    _ = W3 m ρ c (Proc.devRef .tc main_arg4) := keep_part1_ops0 _ main_arg4 (by decide)
    _ = W2 m ρ c (Proc.devRef .tc main_arg4) := keep_part0_ops1 _ main_arg4 (by decide)
    _ = W1 m ρ c (Proc.devRef .tc main_arg4) := W2_of_ne m ρ c main_arg4 (by decide)
    _ = W0 m ρ c (Proc.devRef .tc main_arg4) := keep_part0_ops0 _ main_arg4 (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := keep_part2_ops0 _ main_arg5 (by decide)
    _ = W3 m ρ c (Proc.devRef .tc main_arg5) := keep_part1_ops0 _ main_arg5 (by decide)
    _ = W2 m ρ c (Proc.devRef .tc main_arg5) := keep_part0_ops1 _ main_arg5 (by decide)
    _ = W1 m ρ c (Proc.devRef .tc main_arg5) := W2_of_ne m ρ c main_arg5 (by decide)
    _ = W0 m ρ c (Proc.devRef .tc main_arg5) := keep_part0_ops0 _ main_arg5 (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := keep_part2_ops0 _ main_arg6 (by decide)
    _ = W3 m ρ c (Proc.devRef .tc main_arg6) := keep_part1_ops0 _ main_arg6 (by decide)
    _ = W2 m ρ c (Proc.devRef .tc main_arg6) := keep_part0_ops1 _ main_arg6 (by decide)
    _ = W1 m ρ c (Proc.devRef .tc main_arg6) := W2_of_ne m ρ c main_arg6 (by decide)
    _ = W0 m ρ c (Proc.devRef .tc main_arg6) := keep_part0_ops0 _ main_arg6 (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := keep_part2_ops0 _ main_arg7 (by decide)
    _ = W3 m ρ c (Proc.devRef .tc main_arg7) := keep_part1_ops0 _ main_arg7 (by decide)
    _ = W2 m ρ c (Proc.devRef .tc main_arg7) := keep_part0_ops1 _ main_arg7 (by decide)
    _ = W1 m ρ c (Proc.devRef .tc main_arg7) := W2_of_ne m ρ c main_arg7 (by decide)
    _ = W0 m ρ c (Proc.devRef .tc main_arg7) := keep_part0_ops0 _ main_arg7 (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := keep_part2_ops0 _ main_arg8 (by decide)
    _ = W3 m ρ c (Proc.devRef .tc main_arg8) := keep_part1_ops0 _ main_arg8 (by decide)
    _ = W2 m ρ c (Proc.devRef .tc main_arg8) := keep_part0_ops1 _ main_arg8 (by decide)
    _ = W1 m ρ c (Proc.devRef .tc main_arg8) := W2_of_ne m ρ c main_arg8 (by decide)
    _ = W0 m ρ c (Proc.devRef .tc main_arg8) := keep_part0_ops0 _ main_arg8 (by decide)
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := keep_part2_ops0 _ main_arg9 (by decide)
    _ = W3 m ρ c (Proc.devRef .tc main_arg9) := keep_part1_ops0 _ main_arg9 (by decide)
    _ = W2 m ρ c (Proc.devRef .tc main_arg9) := keep_part0_ops1 _ main_arg9 (by decide)
    _ = W1 m ρ c (Proc.devRef .tc main_arg9) := W2_of_ne m ρ c main_arg9 (by decide)
    _ = W0 m ρ c (Proc.devRef .tc main_arg9) := keep_part0_ops0 _ main_arg9 (by decide)
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := (W6_arr m ρ c 6).trans (((dat1 (V5 m ρ) c).arrAt_in 6 rfl _).trans (A_eq1 (V5 m ρ) c 6))
    _ = W4 m ρ c (Proc.devRef .tc main_arg10) := keep_part2_ops0 _ main_arg10 (by decide)
    _ = W3 m ρ c (Proc.devRef .tc main_arg10) := keep_part1_ops0 _ main_arg10 (by decide)
    _ = W2 m ρ c (Proc.devRef .tc main_arg10) := keep_part0_ops1 _ main_arg10 (by decide)
    _ = W1 m ρ c (Proc.devRef .tc main_arg10) := W2_of_ne m ρ c main_arg10 (by decide)
    _ = W0 m ρ c (Proc.devRef .tc main_arg10) := keep_part0_ops0 _ main_arg10 (by decide)
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := (W6_arr m ρ c 7).trans (((dat1 (V5 m ρ) c).arrAt_in 7 rfl _).trans (A_eq1 (V5 m ρ) c 7))
    _ = W4 m ρ c (Proc.devRef .tc main_arg11) := keep_part2_ops0 _ main_arg11 (by decide)
    _ = W3 m ρ c (Proc.devRef .tc main_arg11) := keep_part1_ops0 _ main_arg11 (by decide)
    _ = W2 m ρ c (Proc.devRef .tc main_arg11) := keep_part0_ops1 _ main_arg11 (by decide)
    _ = W1 m ρ c (Proc.devRef .tc main_arg11) := W2_of_ne m ρ c main_arg11 (by decide)
    _ = W0 m ρ c (Proc.devRef .tc main_arg11) := keep_part0_ops0 _ main_arg11 (by decide)
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := (W6_arr m ρ c 8).trans (((dat1 (V5 m ρ) c).arrAt_in 8 rfl _).trans (A_eq1 (V5 m ρ) c 8))
    _ = W4 m ρ c (Proc.devRef .tc main_arg12) := keep_part2_ops0 _ main_arg12 (by decide)
    _ = W3 m ρ c (Proc.devRef .tc main_arg12) := keep_part1_ops0 _ main_arg12 (by decide)
    _ = W2 m ρ c (Proc.devRef .tc main_arg12) := keep_part0_ops1 _ main_arg12 (by decide)
    _ = W1 m ρ c (Proc.devRef .tc main_arg12) := W2_of_ne m ρ c main_arg12 (by decide)
    _ = W0 m ρ c (Proc.devRef .tc main_arg12) := keep_part0_ops0 _ main_arg12 (by decide)
    _ = m ((c : Thread nD τ).loc main_arg12) := rfl

/-- The frame: the program runs to the end from any memory, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c)⟩) (run_all m ρ)

/-- The same run with the result array named: it ends at the last boundary's contents of the output buffer. -/
theorem run_val : θ_run defs (onTc (τ := τ) (main (F := F))) ⟨m, fun _ => 0, ρ⟩ (fun r => ∀ c : Dev nD,
      r.2.mem ((c.tc : Thread nD τ).loc main_v113) = W6 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v113 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c)⟩) (run_all m ρ)

end Cert.KernelIdeal.Hand

end
-- ==== Proof.LibNary3.lean ====
/-
  A host operation over a literal family of THREE operand references — a concatenate of three arrays — writes its
  function of the three operands' contents, each taken at its own reference. Stated with the operands as
  `Fin.cons (F ↑x) (Fin.cons (F ↑a) (Fin.cons (F ↑b) …))` rather than under a binder `fun k => F ↑(![x, a, b] k)`, so
  that a rewriting pass over a list of host operations can go on and rewrite each operand's own contents: under the
  binder the reference `![x, a, b] k` is no literal and no result lemma applies to it. The loop `after_results3` is the
  library's loop over a literal list of host operations with this lemma tried before the generic one.
-/
import Idealize.ShloMosaic.Lib.StableHlo.Run

noncomputable section

namespace Cert.Lib.Nary3

open Idealize.ShloMosaic Idealize.ShloMosaic.StableHlo Idealize.SL.Sem

variable {τ : Topo} {sig : RefSig} {Val : EltTy → Type} {x a b y : Ref sig .tc}

/-- The result of a three-operand host operation, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Lib.Nary3

/-- The library's rewriting loop for `after ops V ↑r = …` over a literal list of host operations, with the
    three-operand result tried before the generic one. -/
macro "after_results3" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.quaternary_result] | rw [Idealize.ShloMosaic.StableHlo.reshape_result]
               | rw [Cert.Lib.Nary3.nary3_result] | rw [Idealize.ShloMosaic.StableHlo.nary_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.quaternary_result_ne]; rotate_left; decide)
               | (rw [Idealize.ShloMosaic.StableHlo.reshape_result_ne]; rotate_left; decide)
               | (rw [Idealize.ShloMosaic.StableHlo.nary_result_ne]; rotate_left; decide))))

end
-- ==== Proof.KIHost.lean ====
/-
  The host side of the kernel program on the extended reals. Between the two regions each relation's messages
  are formed on the host: the projected features are gathered by source node, scaled by the source node's
  out-degree factor, and scatter-added by destination node; the destination nodes' in-degree factors are laid
  out as a column. This module names those host computations as functions (`aggregate`, `degFactor`), reads
  the stacked weights at coordinates, and identifies each array the combine region is entered with.
-/
import proofs.«179836_j46548855554716_1_alg».proof.Proof.KIArgs
import proofs.«179836_j46548855554716_1_alg».proof.Proof.LibNary3
import Idealize.ShloMosaic.Lib.Pipeline.Value
import Idealize.ShloMosaic.Lib.ValueIdx

set_option maxRecDepth 16384

noncomputable section

namespace Cert.KernelIdeal.Host

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Hand

abbrev IdxVec := (⟨S600000, .i32⟩ : BufTy).Contents (Elt Ideal)
abbrev NodeMat := (⟨S50000x128, .f32⟩ : BufTy).Contents (Elt Ideal)
abbrev NodeVec := (⟨S50000, .f32⟩ : BufTy).Contents (Elt Ideal)

/-- An index vector with negative entries wrapped by the node count, as a column of start indices. -/
def wrapIdx (s : IdxVec) : (⟨S600000x1, .i32⟩ : BufTy).Contents (Elt Ideal) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- The degree factor of every node for one end of a relation's edges: rsqrt (max (number of edges at the node) 1). -/
def degFactor (s : IdxVec) : NodeVec :=
  Host.rsqrt (F := Ideal) (maximumf
    (Host.scatterAdd (F := Ideal) scatter_S50000_S600000x1_S600000_n_0_0_1
      (broadcastInDim S50000 ![] bcast_S_S50000 (constant (F := Ideal) S_ .f32 0x00000000#32))
      (broadcastInDim S600000x1 ![0] bcast_S600000_S600000x1_0 s)
      (broadcastInDim S600000 ![] bcast_S_S600000 (constant (F := Ideal) S_ .f32 0x3F800000#32)))
    (broadcastInDim S50000 ![] bcast_S_S50000 (constant (F := Ideal) S_ .f32 0x3F800000#32)))

/-- One relation's aggregate: rows of `H` gathered by source, scaled by the source's degree factor, scatter-added by
    destination into zeros. -/
def aggregate (H : NodeMat) (src dst : IdxVec) : NodeMat :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (mulf (Host.gather gather_S50000x128_S600000x1_S600000x128_1_0_n_n_0_1_1128 H (wrapIdx src))
      (broadcastInDim S600000x128 ![0, 1] bcast_S600000x1_S600000x128_0_1
        (broadcastInDim S600000x1 ![0] bcast_S600000_S600000x1_0
          (Host.gather gather_S50000_S600000x1_S600000_n_0_n_n_0_1_1 (degFactor src) (wrapIdx src)))))

set_option maxRecDepth 65536 in
set_option maxHeartbeats 4000000 in
/-- Relation `v`'s projected features cut out of the stacked result. -/
def sliceOf (Y : (⟨S3x50000x128, .f32⟩ : BufTy).Contents (Elt Ideal)) (off : Fin 3 → Nat) (h : S3x50000x128.Slices off S1x50000x128) : NodeMat :=
  shapeCast S50000x128 (extractStridedSlice S1x50000x128 off Y h) shapeCasts_S1x50000x128_S50000x128

variable (m : (ℓ : Loc nD τ sig) → Buf (Elt Ideal) ℓ) (ρ : Dev nD → PrngReg)

/-! ## Argument arrays at the boundaries -/

theorem W1_arg (c : Dev nD) (b : Ref sig .tc) (hb : b.idx.val < 13) :
    W1 m ρ c (Proc.devRef .tc b) = m ((c : Thread nD τ).loc b) :=
  (keep_part0_ops0 _ b hb).trans rfl

theorem W2_arg (c : Dev nD) (b : Ref sig .tc) (hb : b.idx.val < 13) (hne : ∀ w, Pipeline.arrRef spec0 w ≠ b) :
    W2 m ρ c (Proc.devRef .tc b) = m ((c : Thread nD τ).loc b) :=
  (W2_of_ne m ρ c b hne).trans (W1_arg m ρ c b hb)

theorem W5_arg (c : Dev nD) (b : Ref sig .tc) (hb : b.idx.val < 13) (hne : ∀ w, Pipeline.arrRef spec0 w ≠ b) :
    W5 m ρ c (Proc.devRef .tc b) = m ((c : Thread nD τ).loc b) :=
  (keep_part2_ops0 _ b hb).trans ((keep_part1_ops0 _ b hb).trans ((keep_part0_ops1 _ b hb).trans (W2_arg m ρ c b hb hne)))

/-! ## The stacked weights at coordinates -/

theorem stack_eq (c : Dev nD) : W1 m ρ c (Proc.devRef .tc main_v3)
    = concatenate S3x128x128 0
        [⟨S1x128x128, broadcastInDim S1x128x128 ![1, 2] bcast_S128x128_S1x128x128_1_2 (m ((c : Thread nD τ).loc main_arg7))⟩,
         ⟨S1x128x128, broadcastInDim S1x128x128 ![1, 2] bcast_S128x128_S1x128x128_1_2 (m ((c : Thread nD τ).loc main_arg8))⟩,
         ⟨S1x128x128, broadcastInDim S1x128x128 ![1, 2] bcast_S128x128_S1x128x128_1_2 (m ((c : Thread nD τ).loc main_arg9))⟩]
        concatenates_S1x128x128_S1x128x128_S1x128x128_S3x128x128_d0 := by
  show StableHlo.after main_part0_ops0 (W0 m ρ c) (Proc.devRef .tc main_v3) = _
  after_results3
  rfl

/-! ## The arrays the combine region is entered with -/

set_option maxRecDepth 65536 in
set_option maxHeartbeats 4000000 in
/-- Relation 0's aggregate, as the combine region finds it. -/
theorem agg0_eq (c : Dev nD) : W5 m ρ c (Proc.devRef .tc main_v43)
    = aggregate (sliceOf (W2 m ρ c (Proc.devRef .tc main_v4)) ![0, 0, 0] slices_S3x50000x128_S1x50000x128_0_0_0)
        (m ((c : Thread nD τ).loc main_arg1)) (m ((c : Thread nD τ).loc main_arg2)) := by
  have e : ∀ W : Valuation τ sig (Elt Ideal), StableHlo.after main_part2_ops0 (StableHlo.after main_part1_ops0 (StableHlo.after main_part0_ops1 W)) (Proc.devRef .tc main_v43)
      = aggregate (sliceOf (W (Proc.devRef .tc main_v4)) ![0, 0, 0] slices_S3x50000x128_S1x50000x128_0_0_0)
          (W (Proc.devRef .tc main_arg1)) (W (Proc.devRef .tc main_arg2)) := by
    intro W
    after_results_simp
    rfl
  refine (e (W2 m ρ c)).trans ?_
  rw [W2_arg m ρ c main_arg1 (by decide) (by decide), W2_arg m ρ c main_arg2 (by decide) (by decide)]

set_option maxRecDepth 65536 in
set_option maxHeartbeats 4000000 in
/-- Relation 0's destination-degree factors as a column, as the combine region finds them. -/
theorem nd0_eq (c : Dev nD) : W5 m ρ c (Proc.devRef .tc main_v110)
    = shapeCast S50000x1 (degFactor (m ((c : Thread nD τ).loc main_arg2))) shapeCasts_S50000_S50000x1 := by
  have e : ∀ W : Valuation τ sig (Elt Ideal), StableHlo.after main_part2_ops0 (StableHlo.after main_part1_ops0 (StableHlo.after main_part0_ops1 W)) (Proc.devRef .tc main_v110)
      = shapeCast S50000x1 (degFactor (W (Proc.devRef .tc main_arg2))) shapeCasts_S50000_S50000x1 := by
    intro W
    after_results_simp
    rfl
  refine (e (W2 m ρ c)).trans ?_
  rw [W2_arg m ρ c main_arg2 (by decide) (by decide)]

set_option maxRecDepth 65536 in
set_option maxHeartbeats 4000000 in
/-- Relation 1's aggregate, as the combine region finds it. -/
theorem agg1_eq (c : Dev nD) : W5 m ρ c (Proc.devRef .tc main_v76)
    = aggregate (sliceOf (W2 m ρ c (Proc.devRef .tc main_v4)) ![1, 0, 0] slices_S3x50000x128_S1x50000x128_1_0_0)
        (m ((c : Thread nD τ).loc main_arg3)) (m ((c : Thread nD τ).loc main_arg4)) := by
  have e : ∀ W : Valuation τ sig (Elt Ideal), StableHlo.after main_part2_ops0 (StableHlo.after main_part1_ops0 (StableHlo.after main_part0_ops1 W)) (Proc.devRef .tc main_v76)
      = aggregate (sliceOf (W (Proc.devRef .tc main_v4)) ![1, 0, 0] slices_S3x50000x128_S1x50000x128_1_0_0)
          (W (Proc.devRef .tc main_arg3)) (W (Proc.devRef .tc main_arg4)) := by
    intro W
    after_results_simp
    rfl
  refine (e (W2 m ρ c)).trans ?_
  rw [W2_arg m ρ c main_arg3 (by decide) (by decide), W2_arg m ρ c main_arg4 (by decide) (by decide)]

set_option maxRecDepth 65536 in
set_option maxHeartbeats 4000000 in
/-- Relation 1's destination-degree factors as a column, as the combine region finds them. -/
theorem nd1_eq (c : Dev nD) : W5 m ρ c (Proc.devRef .tc main_v111)
    = shapeCast S50000x1 (degFactor (m ((c : Thread nD τ).loc main_arg4))) shapeCasts_S50000_S50000x1 := by
  have e : ∀ W : Valuation τ sig (Elt Ideal), StableHlo.after main_part2_ops0 (StableHlo.after main_part1_ops0 (StableHlo.after main_part0_ops1 W)) (Proc.devRef .tc main_v111)
      = shapeCast S50000x1 (degFactor (W (Proc.devRef .tc main_arg4))) shapeCasts_S50000_S50000x1 := by
    intro W
    after_results_simp
    rfl
  refine (e (W2 m ρ c)).trans ?_
  rw [W2_arg m ρ c main_arg4 (by decide) (by decide)]

set_option maxRecDepth 65536 in
set_option maxHeartbeats 4000000 in
/-- Relation 2's aggregate, as the combine region finds it. -/
theorem agg2_eq (c : Dev nD) : W5 m ρ c (Proc.devRef .tc main_v109)
    = aggregate (sliceOf (W2 m ρ c (Proc.devRef .tc main_v4)) ![2, 0, 0] slices_S3x50000x128_S1x50000x128_2_0_0)
        (m ((c : Thread nD τ).loc main_arg5)) (m ((c : Thread nD τ).loc main_arg6)) := by
  have e : ∀ W : Valuation τ sig (Elt Ideal), StableHlo.after main_part2_ops0 (StableHlo.after main_part1_ops0 (StableHlo.after main_part0_ops1 W)) (Proc.devRef .tc main_v109)
      = aggregate (sliceOf (W (Proc.devRef .tc main_v4)) ![2, 0, 0] slices_S3x50000x128_S1x50000x128_2_0_0)
          (W (Proc.devRef .tc main_arg5)) (W (Proc.devRef .tc main_arg6)) := by
    intro W
    after_results_simp
    rfl
  refine (e (W2 m ρ c)).trans ?_
  rw [W2_arg m ρ c main_arg5 (by decide) (by decide), W2_arg m ρ c main_arg6 (by decide) (by decide)]

set_option maxRecDepth 65536 in
set_option maxHeartbeats 4000000 in
/-- Relation 2's destination-degree factors as a column, as the combine region finds them. -/
theorem nd2_eq (c : Dev nD) : W5 m ρ c (Proc.devRef .tc main_v112)
    = shapeCast S50000x1 (degFactor (m ((c : Thread nD τ).loc main_arg6))) shapeCasts_S50000_S50000x1 := by
  have e : ∀ W : Valuation τ sig (Elt Ideal), StableHlo.after main_part2_ops0 (StableHlo.after main_part1_ops0 (StableHlo.after main_part0_ops1 W)) (Proc.devRef .tc main_v112)
      = shapeCast S50000x1 (degFactor (W (Proc.devRef .tc main_arg6))) shapeCasts_S50000_S50000x1 := by
    intro W
    after_results_simp
    rfl
  refine (e (W2 m ρ c)).trans ?_
  rw [W2_arg m ρ c main_arg6 (by decide) (by decide)]

end Cert.KernelIdeal.Host

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.KIValue0.lean ====
/-
  The projection region's result as one function of its two operand arrays: entry (v, n, d) of the stacked
  result is the inner product of row n of the node features with column d of the v-th weight matrix,
  ∑ k, X (n, k) · Ws (v, k, d), on the extended reals. A grid point (i, v) writes block (v, i) of it: rows
  2000·i … 2000·i + 1999 of relation v; the 75 blocks tile the array.
-/
import proofs.«179836_j46548855554716_1_alg».proof.Proof.KIRegions
import proofs.«179836_j46548855554716_1_alg».proof.Proof.LibPlainDot
import Idealize.ShloMosaic.Lib.Pipeline.Value
import Idealize.ShloMosaic.Lib.ValueIdx

set_option maxRecDepth 16384

noncomputable section

namespace Cert.KernelIdeal.Value0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-! ## Layout steps read at coordinates -/

/-- A matrix stored as a one-matrix stack reads, at (z, r, d), the matrix at (r, d). -/
theorem addUnit_at {α : Type} (v : S2000x128.Idx → α) (h : S2000x128.ShapeCasts S1x2000x128) (z : Fin 1) (r : Fin 2000) (d : Fin 128) :
    shapeCast S1x2000x128 v h (ix3 z r d) = v (ix2 r d) :=
  (shapeCast_addUnit_apply ![2000, 128] v h (ix3 z r d)).trans
    (congrArg v (funext fun a => by match a with | ⟨0, _⟩ => rfl | ⟨1, _⟩ => rfl))

/-- A one-matrix stack viewed as its matrix reads, at (k, d), the stack at (0, k, d). -/
theorem dropUnit_at {α : Type} (v : S1x128x128.Idx → α) (h : S1x128x128.ShapeCasts S128x128) (k : Fin 128) (d : Fin 128) :
    shapeCast S128x128 v h (ix2 k d) = v (ix3 (0 : Fin 1) k d) :=
  (shapeCast_dropUnit_apply ![128, 128] v h (ix2 k d)).trans
    (congrArg v (funext fun a => by match a with | ⟨0, _⟩ => rfl | ⟨1, _⟩ => rfl | ⟨2, _⟩ => rfl))

/-! ## The body's product at an index -/

abbrev KD : DotDims S2000x128 S128x128 S2000x128 := dot_S2000x128_S128x128_S2000x128_1_0_0_1_n_n

theorem kd_lhs0 (i : S2000x128.Idx) (q : KD.contr.Idx) : (KD.lhsIdx i q 0).val = (i 0).val := by
  unfold DotDims.lhsIdx
  rw [dif_neg (show ¬(0 : Fin S2000x128.rank) ∈ KD.lhsBatch by decide), dif_pos (show (0 : Fin S2000x128.rank) ∈ KD.lhsNonContracting by decide)]
  rfl
theorem kd_lhs1 (i : S2000x128.Idx) (q : KD.contr.Idx) : (KD.lhsIdx i q 1).val = (q ⟨0, by decide⟩).val :=
  KD.lhsIdx_val_of_single rfl i q
theorem kd_rhs0 (i : S2000x128.Idx) (q : KD.contr.Idx) : (KD.rhsIdx i q 0).val = (q ⟨0, by decide⟩).val :=
  KD.rhsIdx_val_of_single rfl i q
theorem kd_rhs1 (i : S2000x128.Idx) (q : KD.contr.Idx) : (KD.rhsIdx i q 1).val = (i 1).val := by
  unfold DotDims.rhsIdx
  rw [dif_neg (show ¬(1 : Fin S128x128.rank) ∈ KD.rhsBatch by decide), dif_pos (show (1 : Fin S128x128.rank) ∈ KD.rhsNonContracting by decide)]
  rfl

/-- The stored block at (z, r, d): row r of the feature block against column d of the weight block. A change of
    float format is the identity on the extended reals, and the product is accumulated into zero. -/
theorem pay0_at (x0 : Vec Ideal S2000x128 .f32) (x1 : Vec Ideal S1x128x128 .f32) (z : Fin 1) (r : Fin 2000) (d : Fin 128) :
    k0_pay1 (F := Ideal) x0 x1 (ix3 z r d) = ∑ k : Fin 128, x0 (ix2 r k) * x1 (ix3 (0 : Fin 1) k d) := by
  unfold k0_pay1
  refine (addUnit_at _ _ z r d).trans ?_
  refine (Cert.Lib.PlainDot.matmul_zero_ix2 KD rfl rfl kd_lhs0 kd_lhs1 kd_rhs0 kd_rhs1 none _ _ r d).trans ?_
  refine Finset.sum_congr rfl fun k _ => ?_
  exact congrArg (x0 (ix2 r k) * ·) (dropUnit_at x1 _ k d)

/-! ## From blocks to the array -/

/-- The stacked projection of a feature array and a stack of weight matrices, index by index. -/
def proj (X : S50000x128.Idx → EReal) (Ws : S3x128x128.Idx → EReal) : S3x50000x128.Idx → EReal :=
  fun i => ∑ k : Fin 128, X (ix2 (⟨(i 1).val, (i 1).isLt⟩ : Fin 50000) k)
    * Ws (ix3 (⟨(i 0).val, (i 0).isLt⟩ : Fin 3) k (⟨(i 2).val, (i 2).isLt⟩ : Fin 128))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the 75 grid points: the feature block follows the result block's row-tile, the
    weight block its relation, and every other block coordinate is zero. -/
theorem idx_facts : ∀ t : Fin cfg0.N, win0_0.index t (0 : Fin 2) = win0_2.index t (1 : Fin 3)
    ∧ win0_0.index t (1 : Fin 2) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 2
    ∧ win0_2.index t (1 : Fin 3) ≤ 24 :=
  (by decide +kernel : ∀ t : Fin grid0.N, _)

/-- Every (relation, row-tile) pair is some grid point's result block. -/
theorem idx_onto : ∀ (q0 : Fin 3) (q1 : Fin 25), ∃ t : Fin cfg0.N, win0_2.index t = ![q0.val, q1.val, 0] :=
  (by decide +kernel : ∀ (q0 : Fin 3) (q1 : Fin 25), ∃ t : Fin grid0.N, win0_2.index t = ![q0.val, q1.val, 0])

variable (V : (c : Dev nD) → (b : Ref sig .tc) → Buf (Elt Ideal) ((c : Thread nD τ).loc b))

/-- The node features and the stacked weights as the region finds them, as arrays of extended reals. -/
abbrev featOf (c : Dev nD) : S50000x128.Idx → EReal := V c main_arg0
abbrev stackOf (c : Dev nD) : S3x128x128.Idx → EReal := V c main_v3

/-- What grid point `t` writes back is block `t` of the stacked projection of the arrays the region finds. -/
theorem flushed_eq (c : Dev nD) (t : Fin cfg0.N) :
    (dat0 (F := Ideal) V c).flushed 2 t
      = ((cfg0.win 2).blk t).view.read (Elt Ideal) (proj (featOf V c) (stackOf V c)) := by
  show (cfg0.win 2).cut (grid0.coords t) ((dat0 V c).after 2 t) = _
  rw [after0_2]
  unfold out0_2
  rw [View.canon_unit_zero hz3]
  simp only [View.ld_unit_zero (S := S2000x128) hz2, View.ld_unit_zero (S := S1x128x128) hz3]
  obtain ⟨e0, e1, e2, e3, e4, e5, e6, e7⟩ := idx_facts t
  funext j
  obtain ⟨z, r, d, rfl⟩ : ∃ (z : Fin 1) (r : Fin 2000) (d : Fin 128), j = ix3 z r d := ⟨j 0, j 1, j 2, eq_ix3 j⟩
  show k0_pay1 (F := Ideal) (iblk0 V c 0 t) (iblk0 V c 1 t) (ix3 z r d)
    = proj (featOf V c) (stackOf V c) (((cfg0.win 2).blk t).view.emb (ix3 z r d))
  refine (pay0_at (iblk0 V c 0 t) (iblk0 V c 1 t) z r d).trans ?_
  refine Finset.sum_congr rfl fun k _ => ?_
  have hz : z.val = 0 := by omega
  have hr := r.isLt
  have hd := d.isLt
  have hk := k.isLt
  have hX : ((cfg0.win 0).blk t).view.emb (ix2 r k)
      = ix2 (⟨((((cfg0.win 2).blk t).view.emb (ix3 z r d)) 1).val, ((((cfg0.win 2).blk t).view.emb (ix3 z r d)) 1).isLt⟩ : Fin 50000) k := by
    funext a; apply Fin.ext
    match a with
    | ⟨0, _⟩ => show win0_0.index t (0 : Fin 2) * 2000 + 1 * r.val = win0_2.index t (1 : Fin 3) * 2000 + 1 * r.val; omega
    | ⟨1, _⟩ => show win0_0.index t (1 : Fin 2) * 128 + 1 * k.val = k.val; omega
  have hW : ((cfg0.win 1).blk t).view.emb (ix3 (0 : Fin 1) k d)
      = ix3 (⟨((((cfg0.win 2).blk t).view.emb (ix3 z r d)) 0).val, ((((cfg0.win 2).blk t).view.emb (ix3 z r d)) 0).isLt⟩ : Fin 3) k
          (⟨((((cfg0.win 2).blk t).view.emb (ix3 z r d)) 2).val, ((((cfg0.win 2).blk t).view.emb (ix3 z r d)) 2).isLt⟩ : Fin 128) := by
    funext a; apply Fin.ext
    match a with
    | ⟨0, _⟩ => show win0_1.index t (0 : Fin 3) * 1 + 1 * 0 = win0_2.index t (0 : Fin 3) * 1 + 1 * z.val; omega
    | ⟨1, _⟩ => show win0_1.index t (1 : Fin 3) * 128 + 1 * k.val = k.val; omega
    | ⟨2, _⟩ => show win0_1.index t (2 : Fin 3) * 128 + 1 * d.val = win0_2.index t (2 : Fin 3) * 128 + 1 * d.val; omega
  show featOf V c (((cfg0.win 0).blk t).view.emb (ix2 r k)) * stackOf V c (((cfg0.win 1).blk t).view.emb (ix3 (0 : Fin 1) k d)) = _
  rw [hX, hW]

/-- An index of the stacked result is in grid point `t`'s block iff each coordinate lies in the block's range. -/
theorem mem_blk (t : Fin cfg0.N) (i : S3x50000x128.Idx) :
    i ∈ ((cfg0.win 2).blk t).view.set ↔ ∀ a : Fin 3, win0_2.index t a * S1x2000x128.size a ≤ (i a).val
      ∧ (i a).val < win0_2.index t a * S1x2000x128.size a + S1x2000x128.size a := by
  show i ∈ ((View.whole main_v4).slice (win0_2.rect t)).set ↔ _
  rw [View.set_slice_whole, Rect.mem_set_unit]
  exact Iff.rfl

/-- Every entry of the stacked result lies in the block of the point (row-tile ⌊n / 2000⌋, relation v). -/
theorem cover (i : S3x50000x128.Idx) :
    ∃ t : Fin cfg0.N, (cfg0.win 2).flush t = true ∧ i ∈ ((cfg0.win 2).blk t).view.set := by
  have hi0 : (i 0).val < 3 := (i 0).isLt
  have hi1 : (i 1).val < 50000 := (i 1).isLt
  have hi2 : (i 2).val < 128 := (i 2).isLt
  obtain ⟨t, ht⟩ := idx_onto ⟨(i 0).val, hi0⟩ ⟨(i 1).val / 2000, by omega⟩
  have q0 : win0_2.index t (0 : Fin 3) = (i 0).val := congrFun ht 0
  have q1 : win0_2.index t (1 : Fin 3) = (i 1).val / 2000 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2000 ≤ (i 1).val ∧ (i 1).val < win0_2.index t (1 : Fin 3) * 2000 + 2000; omega
  | ⟨2, _⟩ => show win0_2.index t (2 : Fin 3) * 128 ≤ (i 2).val ∧ (i 2).val < win0_2.index t (2 : Fin 3) * 128 + 128; omega

/-- The stacked result after the region: the stacked projection of the arrays the region was entered with. -/
theorem final0 (c : Dev nD) : (dat0 (F := Ideal) V c).arrAt 2 cfg0.N = proj (featOf V c) (stackOf V c) :=
  (dat0 (F := Ideal) V c).arrAt_eq_of_cover 2 (proj (featOf V c) (stackOf V c)) (fun t _ => flushed_eq V c t) cover

/-- The same, read at coordinates. -/
theorem final0_at (c : Dev nD) (v : Fin 3) (n : Fin 50000) (d : Fin 128) :
    (dat0 (F := Ideal) V c).arrAt 2 cfg0.N (ix3 v n d)
      = ∑ k : Fin 128, featOf V c (ix2 n k) * stackOf V c (ix3 v k d) := by
  rw [final0]; rfl

end Cert.KernelIdeal.Value0

end
-- ==== Proof.Spec.lean ====
/-
  The arithmetic of the layer's last step, on the extended reals: one relation's contribution at a node and a
  feature is the aggregate times the node's destination-degree factor plus the bias, rectified; the layer's
  value is the mean of the three relations' contributions, written as the sum times one third. Dividing the
  sum by three is the same thing on every extended real.
-/
import Idealize.ShloMosaic.PureOps.Ideal
import Idealize.ShloMosaic.Lib.ValueIdx

noncomputable section

namespace Cert.Spec

open Idealize.ShloMosaic

/-- One relation's contribution: `max (a · n + b) 0`. -/
def term (a n b : EReal) : EReal := max (a * n + b) 0

/-- The mean of three contributions, as their sum times the real number one third. -/
def mean3 (a0 n0 b0 a1 n1 b1 a2 n2 b2 : EReal) : EReal :=
  ((term a0 n0 b0 + term a1 n1 b1) + term a2 n2 b2) * ((1 / 3 : ℝ) : EReal)

/-- Dividing by the real number three is multiplying by one third, on every extended real. -/
theorem div_three (x : EReal) : Ideal.div x ((3 : ℝ) : EReal) = x * ((1 / 3 : ℝ) : EReal) :=
  Ideal.div_coe (by norm_num : (3 : ℝ) ≠ 0) x

end Cert.Spec

end
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.KIValue1.lean ====
/-
  The combine kernel's region, from its blocks to the whole output array, on the extended reals.

  At one row `r` and one feature `d` of a block the kernel's stored value is the mean of three rectified terms, each
  the relation's aggregate at `(r, d)` times the relation's degree column at row `r` plus the relation's bias at
  feature `d`: the column is repeated over the features, the bias over the rows, the threshold is zero and the last
  factor is the constant one third. At grid point `t` the three aggregates' blocks and the three columns' blocks sit
  on the same 2000 rows as the output's block, and the biases are read whole; so what point `t` writes back is
  block `t` of one function `G1` of the arrays the region is entered with. The 25 blocks cover the 50000 rows
  (row `n` is in block `n / 2000`), hence the output array after the region is `G1` everywhere.
-/
import proofs.«179836_j46548855554716_1_alg».proof.Proof.KIRegions
import proofs.«179836_j46548855554716_1_alg».proof.Proof.Spec
import proofs.«179836_j46548855554716_1_alg».proof.Proof.LibColumns
import Idealize.ShloMosaic.PureOps.IdealRules
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Value1

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

/-! ## The combine kernel's payload at one row and one feature of a block -/

/-- The kernel's constant one third, by the certificate's table of named constants. -/
theorem inv_3 : Named.named (F := Ideal) Cert.KernelIdeal.κ "inv_3" (φ := .f32) 0x3EAAAAAB#32 = ((1 / 3 : ℝ) : EReal) :=
  IdealRules.named_const.ideal_named_scalar _ _ _ _ rfl

/-- The scalar zero threshold is the extended real zero. -/
theorem zero_thr : Scalar.ofBits (F := Ideal) .f32 0x00000000#32 = (0 : EReal) := Ideal.ofBits_zero_f32

/-- A bias vector, viewed as one row and repeated over the block's rows, is at `(r, d)` the bias of feature `d`. -/
theorem bias_at {α : Type} (v : S128.Idx → α) (r : Fin 2000) (d : Fin 128) :
    broadcastTo S2000x128 (shapeCast S1x128 v shapeCasts_S128_S1x128) broadcasts_S1x128_S2000x128 (ix2 r d) = v (ix1 d) := by
  rw [broadcastTo_1b_ab_apply, shapeCast_a_1a_apply]

/-- A degree column, repeated over the block's features, is at `(r, d)` the column's entry of row `r`. -/
theorem col_at {α : Type} (v : S2000x1.Idx → α) (r : Fin 2000) (d : Fin 128) :
    broadcastTo S2000x128 v broadcasts_S2000x1_S2000x128 (ix2 r d) = v (ix2 r (0 : Fin 1)) :=
  Cert.Lib.Columns.broadcastTo_a1_ab_apply v _ r d

/-- The payload at row `r` and feature `d` of the block: the mean of the three rectified contributions. -/
theorem pay1_at (v0 v2 v4 : Vec Ideal S128 .f32) (v6 : Vec Ideal S2000x128 .f32) (v8 : Vec Ideal S2000x1 .f32)
    (v16 : Vec Ideal S2000x128 .f32) (v18 : Vec Ideal S2000x1 .f32) (v26 : Vec Ideal S2000x128 .f32) (v28 : Vec Ideal S2000x1 .f32)
    (r : Fin 2000) (d : Fin 128) :
    k1_pay1 (F := Ideal) v0 v2 v4 v6 v8 v16 v18 v26 v28 (ix2 r d)
      = Cert.Spec.mean3 (v6 (ix2 r d)) (v8 (ix2 r (0 : Fin 1))) (v0 (ix1 d))
                        (v16 (ix2 r d)) (v18 (ix2 r (0 : Fin 1))) (v2 (ix1 d))
                        (v26 (ix2 r d)) (v28 (ix2 r (0 : Fin 1))) (v4 (ix1 d)) := by
  unfold k1_pay1
  simp only [mulf_apply, addf_apply, maximumf_apply, broadcast_apply, bias_at, col_at, shapeCast_self, inv_3, zero_thr,
    Cert.Spec.mean3, Cert.Spec.term]

/-! ## The whole-array function -/

/-- The node of an index of the `[50000, 128]` array, as an index of a `[50000, 1]` column. -/
abbrev rowIdx (i : S50000x128.Idx) : S50000x1.Idx := fun a => match a with
  | ⟨0, _⟩ => ⟨(i 0).val, (i 0).isLt⟩
  | ⟨1, _⟩ => ⟨0, Nat.one_pos⟩

/-- The feature of an index of the `[50000, 128]` array, as an index of a `[128]` vector. -/
abbrev colIdx (i : S50000x128.Idx) : S128.Idx := fun a => match a with
  | ⟨0, _⟩ => ⟨(i 1).val, (i 1).isLt⟩

/-- The layer's result as one function of the three aggregates, the three degree columns and the three biases,
    index by index: at node `n` and feature `d` the mean of the three relations' rectified contributions. -/
def G1 (A0 A1 A2 : S50000x128.Idx → EReal) (N0 N1 N2 : S50000x1.Idx → EReal) (B0 B1 B2 : S128.Idx → EReal) :
    S50000x128.Idx → EReal := fun i =>
  Cert.Spec.mean3 (A0 i) (N0 (rowIdx i)) (B0 (colIdx i)) (A1 i) (N1 (rowIdx i)) (B1 (colIdx i)) (A2 i) (N2 (rowIdx i)) (B2 (colIdx i))

/-- `G1` at node `p` and feature `q`, with the column's and the bias's indices written by coordinates. -/
theorem G1_at (A0 A1 A2 : S50000x128.Idx → EReal) (N0 N1 N2 : S50000x1.Idx → EReal) (B0 B1 B2 : S128.Idx → EReal)
    (p : Fin 50000) (q : Fin 128) :
    G1 A0 A1 A2 N0 N1 N2 B0 B1 B2 (ix2 p q)
      = Cert.Spec.mean3 (A0 (ix2 p q)) (N0 (ix2 p (0 : Fin 1))) (B0 (ix1 q)) (A1 (ix2 p q)) (N1 (ix2 p (0 : Fin 1))) (B1 (ix1 q))
          (A2 (ix2 p q)) (N2 (ix2 p (0 : Fin 1))) (B2 (ix1 q)) := by
  have hr : rowIdx (ix2 p q) = ix2 p (0 : Fin 1) := funext fun a => Fin.ext (by match a with | ⟨0, _⟩ => rfl | ⟨1, _⟩ => rfl)
  have hc : colIdx (ix2 p q) = ix1 q := funext fun a => Fin.ext (by match a with | ⟨0, _⟩ => rfl)
  unfold G1
  rw [hr, hc]

/-! ## From the blocks to the array -/

/-- The zero offsets of a whole-block rectangle of rank two, as the constant function. -/
theorem zeroOff2 : (![0, 0] : Fin 2 → Nat) = fun _ => 0 := funext fun a => by fin_cases a <;> rfl
/-- The zero offset of a whole-block rectangle of rank one, as the constant function. -/
theorem zeroOff1 : (![0] : Fin 1 → Nat) = fun _ => 0 := funext fun a => by fin_cases a <;> rfl

/-- The printed index maps, decided over the 25 grid points: at point `t` the aggregates' and the degree columns'
    blocks are on the output's block row, all on block column 0, the biases' on block 0, and the output's block
    row is at most 24. -/
theorem block_indices : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = win1_9.index t (0 : Fin 2) ∧ win1_2.index t (1 : Fin 2) = 0
    ∧ win1_3.index t (0 : Fin 2) = win1_9.index t (0 : Fin 2) ∧ win1_3.index t (1 : Fin 2) = 0
    ∧ win1_4.index t (0 : Fin 2) = win1_9.index t (0 : Fin 2) ∧ win1_4.index t (1 : Fin 2) = 0
    ∧ win1_5.index t (0 : Fin 2) = win1_9.index t (0 : Fin 2) ∧ win1_5.index t (1 : Fin 2) = 0
    ∧ win1_6.index t (0 : Fin 1) = 0 ∧ win1_7.index t (0 : Fin 1) = 0 ∧ win1_8.index t (0 : Fin 1) = 0
    ∧ win1_9.index t (1 : Fin 2) = 0 ∧ win1_9.index t (0 : Fin 2) ≤ 24 :=
  (by decide +kernel : ∀ t : Fin grid1.N, _)

/-- Every block row of the output is some point's. -/
theorem block_rows_onto : ∀ q0 : Fin 25, ∃ t : Fin cfg1.N, win1_9.index t (0 : Fin 2) = q0.val :=
  (by decide +kernel : ∀ q0 : Fin 25, ∃ t : Fin grid1.N, win1_9.index t (0 : Fin 2) = q0.val)

/-- An index of the array is in point `t`'s block iff each coordinate is in the block's range on its axis. -/
theorem mem_block_iff (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v113).slice (win1_9.rect t)).set ↔ _
  rw [View.set_slice_whole, Rect.mem_set_unit]
  exact Iff.rfl

/-- Every index of the array is in some point's block: node `n` is in the block of point `n / 2000`. -/
theorem blocks_cover (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ := block_rows_onto ⟨(i 0).val / 2000, by omega⟩
  have q0 : win1_9.index t (0 : Fin 2) = (i 0).val / 2000 := ht
  obtain ⟨-, -, -, -, -, -, -, -, -, -, -, -, -, -, -, e91, -⟩ := block_indices t
  refine ⟨t, flush1_9 t, ?_⟩
  rw [mem_block_iff]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 128 ≤ (i 1).val ∧ (i 1).val < win1_9.index t (1 : Fin 2) * 128 + 128; omega

section
variable (V : (c : Dev nD) → (b : Ref sig .tc) → Buf (Elt Ideal) ((c : Thread nD τ).loc b))

/-- What point `t` writes back is block `t` of `G1` of the arrays as the region finds them. -/
theorem written_back_eq (c : Dev nD) (t : Fin cfg1.N) :
    (dat1 (F := Ideal) V c).flushed 9 t = ((cfg1.win 9).blk t).view.read (Elt Ideal)
      (G1 (V c main_v43) (V c main_v76) (V c main_v109) (V c main_v110) (V c main_v111) (V c main_v112)
        (V c main_arg10) (V c main_arg11) (V c main_arg12)) := by
  show (cfg1.win 9).cut (grid1.coords t) ((dat1 V c).after 9 t) = _
  rw [after1_9]
  unfold out1_9
  rw [View.canon_unit_zero zeroOff2]
  simp only [View.ld_unit_zero (S := S2000x128) zeroOff2, View.ld_unit_zero (S := S2000x1) zeroOff2, View.ld_unit_zero (S := S128) zeroOff1]
  funext j
  obtain ⟨r, d, rfl⟩ : ∃ (r : Fin 2000) (d : Fin 128), j = ix2 r d := ⟨j 0, j 1, eq_ix2 j⟩
  obtain ⟨e00, e01, e10, e11, e20, e21, e30, e31, e40, e41, e50, e51, e6, e7, e8, e91, e9⟩ := block_indices t
  have hr : r.val < 2000 := r.isLt
  have hd : d.val < 128 := d.isLt
  show k1_pay1 (iblk1 V c 6 t) (iblk1 V c 7 t) (iblk1 V c 8 t) (iblk1 V c 0 t) (iblk1 V c 3 t) (iblk1 V c 1 t)
        (iblk1 V c 4 t) (iblk1 V c 2 t) (iblk1 V c 5 t) (ix2 r d)
      = G1 (V c main_v43) (V c main_v76) (V c main_v109) (V c main_v110) (V c main_v111) (V c main_v112)
          (V c main_arg10) (V c main_arg11) (V c main_arg12) (((cfg1.win 9).blk t).view.emb (ix2 r d))
  rw [pay1_at]
  have hA0 : ((cfg1.win 0).blk t).view.emb (ix2 r d) = ((cfg1.win 9).blk t).view.emb (ix2 r d) := by
    funext a; apply Fin.ext
    match a with
    | ⟨0, _⟩ => show win1_0.index t (0 : Fin 2) * 2000 + 1 * r.val = win1_9.index t (0 : Fin 2) * 2000 + 1 * r.val; omega
    | ⟨1, _⟩ => show win1_0.index t (1 : Fin 2) * 128 + 1 * d.val = win1_9.index t (1 : Fin 2) * 128 + 1 * d.val; omega
  have hA1 : ((cfg1.win 1).blk t).view.emb (ix2 r d) = ((cfg1.win 9).blk t).view.emb (ix2 r d) := by
    funext a; apply Fin.ext
    match a with
    | ⟨0, _⟩ => show win1_1.index t (0 : Fin 2) * 2000 + 1 * r.val = win1_9.index t (0 : Fin 2) * 2000 + 1 * r.val; omega
    | ⟨1, _⟩ => show win1_1.index t (1 : Fin 2) * 128 + 1 * d.val = win1_9.index t (1 : Fin 2) * 128 + 1 * d.val; omega
  have hA2 : ((cfg1.win 2).blk t).view.emb (ix2 r d) = ((cfg1.win 9).blk t).view.emb (ix2 r d) := by
    funext a; apply Fin.ext
    match a with
    | ⟨0, _⟩ => show win1_2.index t (0 : Fin 2) * 2000 + 1 * r.val = win1_9.index t (0 : Fin 2) * 2000 + 1 * r.val; omega
    | ⟨1, _⟩ => show win1_2.index t (1 : Fin 2) * 128 + 1 * d.val = win1_9.index t (1 : Fin 2) * 128 + 1 * d.val; omega
  have hN0 : ((cfg1.win 3).blk t).view.emb (ix2 r (0 : Fin 1)) = rowIdx (((cfg1.win 9).blk t).view.emb (ix2 r d)) := by
    funext a; apply Fin.ext
    match a with
    | ⟨0, _⟩ => show win1_3.index t (0 : Fin 2) * 2000 + 1 * r.val = win1_9.index t (0 : Fin 2) * 2000 + 1 * r.val; omega
    | ⟨1, _⟩ => show win1_3.index t (1 : Fin 2) * 1 + 1 * 0 = 0; omega
  have hN1 : ((cfg1.win 4).blk t).view.emb (ix2 r (0 : Fin 1)) = rowIdx (((cfg1.win 9).blk t).view.emb (ix2 r d)) := by
    funext a; apply Fin.ext
    match a with
    | ⟨0, _⟩ => show win1_4.index t (0 : Fin 2) * 2000 + 1 * r.val = win1_9.index t (0 : Fin 2) * 2000 + 1 * r.val; omega
    | ⟨1, _⟩ => show win1_4.index t (1 : Fin 2) * 1 + 1 * 0 = 0; omega
  have hN2 : ((cfg1.win 5).blk t).view.emb (ix2 r (0 : Fin 1)) = rowIdx (((cfg1.win 9).blk t).view.emb (ix2 r d)) := by
    funext a; apply Fin.ext
    match a with
    | ⟨0, _⟩ => show win1_5.index t (0 : Fin 2) * 2000 + 1 * r.val = win1_9.index t (0 : Fin 2) * 2000 + 1 * r.val; omega
    | ⟨1, _⟩ => show win1_5.index t (1 : Fin 2) * 1 + 1 * 0 = 0; omega
  have hB0 : ((cfg1.win 6).blk t).view.emb (ix1 d) = colIdx (((cfg1.win 9).blk t).view.emb (ix2 r d)) := by
    funext a; apply Fin.ext
    match a with
    | ⟨0, _⟩ => show win1_6.index t (0 : Fin 1) * 128 + 1 * d.val = win1_9.index t (1 : Fin 2) * 128 + 1 * d.val; omega
  have hB1 : ((cfg1.win 7).blk t).view.emb (ix1 d) = colIdx (((cfg1.win 9).blk t).view.emb (ix2 r d)) := by
    funext a; apply Fin.ext
    match a with
    | ⟨0, _⟩ => show win1_7.index t (0 : Fin 1) * 128 + 1 * d.val = win1_9.index t (1 : Fin 2) * 128 + 1 * d.val; omega
  have hB2 : ((cfg1.win 8).blk t).view.emb (ix1 d) = colIdx (((cfg1.win 9).blk t).view.emb (ix2 r d)) := by
    funext a; apply Fin.ext
    match a with
    | ⟨0, _⟩ => show win1_8.index t (0 : Fin 1) * 128 + 1 * d.val = win1_9.index t (1 : Fin 2) * 128 + 1 * d.val; omega
  show Cert.Spec.mean3
      (V c main_v43 (((cfg1.win 0).blk t).view.emb (ix2 r d))) (V c main_v110 (((cfg1.win 3).blk t).view.emb (ix2 r (0 : Fin 1)))) (V c main_arg10 (((cfg1.win 6).blk t).view.emb (ix1 d)))
      (V c main_v76 (((cfg1.win 1).blk t).view.emb (ix2 r d))) (V c main_v111 (((cfg1.win 4).blk t).view.emb (ix2 r (0 : Fin 1)))) (V c main_arg11 (((cfg1.win 7).blk t).view.emb (ix1 d)))
      (V c main_v109 (((cfg1.win 2).blk t).view.emb (ix2 r d))) (V c main_v112 (((cfg1.win 5).blk t).view.emb (ix2 r (0 : Fin 1)))) (V c main_arg12 (((cfg1.win 8).blk t).view.emb (ix1 d)))
    = Cert.Spec.mean3
      (V c main_v43 (((cfg1.win 9).blk t).view.emb (ix2 r d))) (V c main_v110 (rowIdx (((cfg1.win 9).blk t).view.emb (ix2 r d)))) (V c main_arg10 (colIdx (((cfg1.win 9).blk t).view.emb (ix2 r d))))
      (V c main_v76 (((cfg1.win 9).blk t).view.emb (ix2 r d))) (V c main_v111 (rowIdx (((cfg1.win 9).blk t).view.emb (ix2 r d)))) (V c main_arg11 (colIdx (((cfg1.win 9).blk t).view.emb (ix2 r d))))
      (V c main_v109 (((cfg1.win 9).blk t).view.emb (ix2 r d))) (V c main_v112 (rowIdx (((cfg1.win 9).blk t).view.emb (ix2 r d)))) (V c main_arg12 (colIdx (((cfg1.win 9).blk t).view.emb (ix2 r d))))
  rw [hA0, hA1, hA2, hN0, hN1, hN2, hB0, hB1, hB2]

/-- The output array after the region: `G1` of the arrays as the region finds them. -/
theorem final1 (c : Dev nD) :
    (dat1 (F := Ideal) V c).arrAt 9 cfg1.N
      = G1 (V c main_v43) (V c main_v76) (V c main_v109) (V c main_v110) (V c main_v111) (V c main_v112)
          (V c main_arg10) (V c main_arg11) (V c main_arg12) :=
  (dat1 (F := Ideal) V c).arrAt_eq_of_cover 9 _ (fun t _ => written_back_eq V c t) blocks_cover

end

/-- The output array after the region, at node `p` and feature `q`: the mean of the three relations' rectified
    contributions, each from the relation's aggregate at `(p, q)`, its degree column at `p` and its bias at `q`. -/
theorem final1_at (V : (c : Dev nD) → (b : Ref sig .tc) → Buf (Elt Ideal) ((c : Thread nD τ).loc b)) (c : Dev nD) (p : Fin 50000) (q : Fin 128) :
    (dat1 (F := Ideal) V c).arrAt 9 cfg1.N (ix2 p q)
      = Cert.Spec.mean3 (V c main_v43 (ix2 p q)) (V c main_v110 (ix2 p (0 : Fin 1))) (V c main_arg10 (ix1 q))
                        (V c main_v76 (ix2 p q)) (V c main_v111 (ix2 p (0 : Fin 1))) (V c main_arg11 (ix1 q))
                        (V c main_v109 (ix2 p q)) (V c main_v112 (ix2 p (0 : Fin 1))) (V c main_arg12 (ix1 q)) := by
  rw [final1 V c]
  exact G1_at _ _ _ _ _ _ _ _ _ p q

end Cert.KernelIdeal.Value1

end
-- ==== Proof.RefSide.lean ====
/-
  The reference's last stage read at one node `p` and one feature `q`, on the extended reals. Going down from the
  final quotient: the divisor is the constant three everywhere; the dividend is the sum of three rectified terms;
  each term is the relation's aggregate at `(p, q)` times the relation's destination-degree factor, which two
  broadcasts carry from node `p` alone, plus the relation's bias, which two broadcasts carry from feature `q`
  alone, the whole compared with the constant zero. The aggregates and the degree factors are left as the arrays
  they are.
-/
import proofs.«179836_j46548855554716_1_alg».proof.Proof.Gen.ReferenceIdeal.Read
import proofs.«179836_j46548855554716_1_alg».proof.Proof.Spec

noncomputable section

namespace Cert.RefSide

open Cert.ReferenceIdeal Cert.ReferenceIdeal.Read Idealize.ShloMosaic Idealize.ShloMosaic.ValueIdx

/-! ## The two constants -/

/-- The pattern of `3.0` denotes the real number three. -/
theorem ofBits_three : Ideal.ofBits .f32 0x40400000#32 = ((3 : ℝ) : EReal) := by
  simp [Ideal.ofBits, Ideal.ieee, -EReal.coe_mul]; norm_num

/-- The divisor array is three at every index. -/
theorem three_at (i : S50000x128.Idx) : val_main_v125 (F := Ideal) i = ((3 : ℝ) : EReal) := by
  rw [val_main_v125_apply, val_main_cst_28_apply, Ideal.ofBits_def, ofBits_three]

/-- The first rectifier's threshold array is zero at every index. -/
theorem zero0_at (i : S50000x128.Idx) : val_main_call0_v0 (F := Ideal) i = 0 := by
  rw [val_main_call0_v0_apply, val_main_call0_cst_apply, Ideal.ofBits_def, Ideal.ofBits_zero_f32]

/-- The second rectifier's threshold array is zero at every index. -/
theorem zero1_at (i : S50000x128.Idx) : val_main_call1_v0 (F := Ideal) i = 0 := by
  rw [val_main_call1_v0_apply, val_main_call1_cst_apply, Ideal.ofBits_def, Ideal.ofBits_zero_f32]

/-- The third rectifier's threshold array is zero at every index. -/
theorem zero2_at (i : S50000x128.Idx) : val_main_call2_v0 (F := Ideal) i = 0 := by
  rw [val_main_call2_v0_apply, val_main_call2_cst_apply, Ideal.ofBits_def, Ideal.ofBits_zero_f32]

/-! ## The degree factors, carried along the features -/

/-- The first relation's degree factor, broadcast over the features, is at `(p, q)` the factor of node `p`. -/
theorem deg0_at (x2 : (⟨S600000, .i32⟩ : BufTy).Contents (Elt Ideal)) (p : Fin 50000) (q : Fin 128) :
    val_main_v35 (F := Ideal) x2 (ix2 p q) = val_main_v12 (F := Ideal) x2 (ix1 p) := by
  rw [val_main_v35_apply, val_main_v34_apply]
  exact congrArg _ (funext fun a => Fin.ext (by match a with | ⟨0, _⟩ => rfl))

/-- The second relation's degree factor, broadcast over the features, is at `(p, q)` the factor of node `p`. -/
theorem deg1_at (x4 : (⟨S600000, .i32⟩ : BufTy).Contents (Elt Ideal)) (p : Fin 50000) (q : Fin 128) :
    val_main_v76 (F := Ideal) x4 (ix2 p q) = val_main_v53 (F := Ideal) x4 (ix1 p) := by
  rw [val_main_v76_apply, val_main_v75_apply]
  exact congrArg _ (funext fun a => Fin.ext (by match a with | ⟨0, _⟩ => rfl))

/-- The third relation's degree factor, broadcast over the features, is at `(p, q)` the factor of node `p`. -/
theorem deg2_at (x6 : (⟨S600000, .i32⟩ : BufTy).Contents (Elt Ideal)) (p : Fin 50000) (q : Fin 128) :
    val_main_v117 (F := Ideal) x6 (ix2 p q) = val_main_v94 (F := Ideal) x6 (ix1 p) := by
  rw [val_main_v117_apply, val_main_v116_apply]
  exact congrArg _ (funext fun a => Fin.ext (by match a with | ⟨0, _⟩ => rfl))

/-! ## The biases, carried along the nodes -/

/-- The first relation's bias, broadcast over the nodes, is at `(p, q)` the bias of feature `q`. -/
theorem bias0_at (x10 : (⟨S128, .f32⟩ : BufTy).Contents (Elt Ideal)) (p : Fin 50000) (q : Fin 128) :
    val_main_v38 (F := Ideal) x10 (ix2 p q) = x10 (ix1 q) := by
  rw [val_main_v38_apply, val_main_v37_apply]
  exact congrArg _ (funext fun a => Fin.ext (by match a with | ⟨0, _⟩ => rfl))

/-- The second relation's bias, broadcast over the nodes, is at `(p, q)` the bias of feature `q`. -/
theorem bias1_at (x11 : (⟨S128, .f32⟩ : BufTy).Contents (Elt Ideal)) (p : Fin 50000) (q : Fin 128) :
    val_main_v79 (F := Ideal) x11 (ix2 p q) = x11 (ix1 q) := by
  rw [val_main_v79_apply, val_main_v78_apply]
  exact congrArg _ (funext fun a => Fin.ext (by match a with | ⟨0, _⟩ => rfl))

/-- The third relation's bias, broadcast over the nodes, is at `(p, q)` the bias of feature `q`. -/
theorem bias2_at (x12 : (⟨S128, .f32⟩ : BufTy).Contents (Elt Ideal)) (p : Fin 50000) (q : Fin 128) :
    val_main_v120 (F := Ideal) x12 (ix2 p q) = x12 (ix1 q) := by
  rw [val_main_v120_apply, val_main_v119_apply]
  exact congrArg _ (funext fun a => Fin.ext (by match a with | ⟨0, _⟩ => rfl))

/-! ## The last stage at an index -/

/-- The reference's result at node `p` and feature `q` is the mean of the three relations' rectified
    contributions, each built from the relation's aggregate at `(p, q)`, its degree factor at `p` and its bias
    at `q`. -/
theorem ref_at (x0 : (⟨S50000x128, .f32⟩ : BufTy).Contents (Elt Ideal))
    (x1 x2 x3 x4 x5 x6 : (⟨S600000, .i32⟩ : BufTy).Contents (Elt Ideal))
    (x7 x8 x9 : (⟨S128x128, .f32⟩ : BufTy).Contents (Elt Ideal))
    (x10 x11 x12 : (⟨S128, .f32⟩ : BufTy).Contents (Elt Ideal)) (p : Fin 50000) (q : Fin 128) :
    val_main_v126 (F := Ideal) x0 x1 x2 x3 x4 x5 x6 x7 x8 x9 x10 x11 x12 (ix2 p q)
      = Cert.Spec.mean3
          (val_main_v33 (F := Ideal) x0 x1 x2 x7 (ix2 p q)) (val_main_v12 (F := Ideal) x2 (ix1 p)) (x10 (ix1 q))
          (val_main_v74 (F := Ideal) x0 x3 x4 x8 (ix2 p q)) (val_main_v53 (F := Ideal) x4 (ix1 p)) (x11 (ix1 q))
          (val_main_v115 (F := Ideal) x0 x5 x6 x9 (ix2 p q)) (val_main_v94 (F := Ideal) x6 (ix1 p)) (x12 (ix1 q)) := by
  rw [val_main_v126_apply, val_main_v124_apply, val_main_v123_apply,
    val_main_v40_apply, val_main_v81_apply, val_main_v122_apply,
    val_main_v39_apply, val_main_v80_apply, val_main_v121_apply,
    val_main_v36_apply, val_main_v77_apply, val_main_v118_apply,
    deg0_at, deg1_at, deg2_at, bias0_at, bias1_at, bias2_at,
    zero0_at, zero1_at, zero2_at, three_at]
  simp only [Ideal.hostDivf_def, Ideal.addf_def, Ideal.mulf_def, Ideal.maximumf_def, Cert.Spec.div_three,
    Cert.Spec.mean3, Cert.Spec.term]

end Cert.RefSide

end
-- ==== Proof.Bridge.lean ====
/-
  The two programs compute one function. Relation v's slice of the kernel's stacked projection is the
  reference's product X · W_v, entry by entry (both are ∑ k, X (n, k) · W_v (k, d) on the extended reals);
  the host computations between the regions are the reference's own, so each aggregate and each degree factor
  agrees; and at a node row and a feature the combine kernel's mean of the three rectified contributions,
  written with the real number one third, is the reference's sum divided by three.
-/
import proofs.«179836_j46548855554716_1_alg».proof.Proof.KIHost
import proofs.«179836_j46548855554716_1_alg».proof.Proof.KIValue0
import proofs.«179836_j46548855554716_1_alg».proof.Proof.KIValue1
import proofs.«179836_j46548855554716_1_alg».proof.Proof.RefSide
import proofs.«179836_j46548855554716_1_alg».proof.Proof.LibColumns
import proofs.«179836_j46548855554716_1_alg».proof.Proof.Gen.ReferenceIdeal.Read

set_option maxRecDepth 16384

noncomputable section

namespace Cert.Bridge

open Idealize.ShloMosaic Idealize.ShloMosaic.TcCoe Idealize.ShloMosaic.ValueIdx
open Idealize.SL Idealize.SL.Sem
open Cert.KernelIdeal Cert.KernelIdeal.Gen Cert.KernelIdeal.Hand Cert.KernelIdeal.Host

/-! ## The reference's stages are the host functions of the kernel program -/

theorem ref_deg (s : IdxVec) : Cert.ReferenceIdeal.Read.val_main_v12 (F := Ideal) s = degFactor s := rfl
theorem ref_deg1 (s : IdxVec) : Cert.ReferenceIdeal.Read.val_main_v53 (F := Ideal) s = degFactor s := rfl
theorem ref_deg2 (s : IdxVec) : Cert.ReferenceIdeal.Read.val_main_v94 (F := Ideal) s = degFactor s := rfl

theorem ref_agg0 (x0 : NodeMat) (x1 x2 : IdxVec) (x7 : (⟨S128x128, .f32⟩ : BufTy).Contents (Elt Ideal)) :
    Cert.ReferenceIdeal.Read.val_main_v33 (F := Ideal) x0 x1 x2 x7
      = aggregate (Cert.ReferenceIdeal.Read.val_main_v13 (F := Ideal) x0 x7) x1 x2 := rfl
theorem ref_agg1 (x0 : NodeMat) (x3 x4 : IdxVec) (x8 : (⟨S128x128, .f32⟩ : BufTy).Contents (Elt Ideal)) :
    Cert.ReferenceIdeal.Read.val_main_v74 (F := Ideal) x0 x3 x4 x8
      = aggregate (Cert.ReferenceIdeal.Read.val_main_v54 (F := Ideal) x0 x8) x3 x4 := rfl
theorem ref_agg2 (x0 : NodeMat) (x5 x6 : IdxVec) (x9 : (⟨S128x128, .f32⟩ : BufTy).Contents (Elt Ideal)) :
    Cert.ReferenceIdeal.Read.val_main_v115 (F := Ideal) x0 x5 x6 x9
      = aggregate (Cert.ReferenceIdeal.Read.val_main_v95 (F := Ideal) x0 x9) x5 x6 := rfl

variable (m : (ℓ : Loc nD τ sig) → Buf (Elt Ideal) ℓ) (ρ : Dev nD → PrngReg)

/-! ## The stacked weights at coordinates -/

theorem stack_at0 (c : Dev nD) (k d : Fin 128) :
    (W1 m ρ c (Proc.devRef .tc main_v3) : S3x128x128.Idx → EReal) (ix3 (0 : Fin 3) k d)
      = (m ((c : Thread nD τ).loc main_arg7) : S128x128.Idx → EReal) (ix2 k d) := by
  rw [stack_eq]
  refine (concatenate_apply_piece (t := S3x128x128) (0 : Fin 3)
    [⟨S1x128x128, broadcastInDim S1x128x128 ![1, 2] bcast_S128x128_S1x128x128_1_2 (m ((c : Thread nD τ).loc main_arg7))⟩,
     ⟨S1x128x128, broadcastInDim S1x128x128 ![1, 2] bcast_S128x128_S1x128x128_1_2 (m ((c : Thread nD τ).loc main_arg8))⟩,
     ⟨S1x128x128, broadcastInDim S1x128x128 ![1, 2] bcast_S128x128_S1x128x128_1_2 (m ((c : Thread nD τ).loc main_arg9))⟩]
    concatenates_S1x128x128_S1x128x128_S1x128x128_S3x128x128_d0 (ix3 (0 : Fin 3) k d)
    0 (by show (0 : ℕ) < 3; omega) S1x128x128 _ rfl rfl 0 rfl (ix3 (0 : Fin 1) k d) ?_ rfl).trans ?_
  · intro b hb
    match b with
    | ⟨0, _⟩ => exact absurd rfl hb
    | ⟨1, _⟩ => rfl
    | ⟨2, _⟩ => rfl
  · exact broadcastInDim_apply _ _ _ _ (ix2 k d) (fun a => by match a with | ⟨0, _⟩ => rfl | ⟨1, _⟩ => rfl)

theorem stack_at1 (c : Dev nD) (k d : Fin 128) :
    (W1 m ρ c (Proc.devRef .tc main_v3) : S3x128x128.Idx → EReal) (ix3 (1 : Fin 3) k d)
      = (m ((c : Thread nD τ).loc main_arg8) : S128x128.Idx → EReal) (ix2 k d) := by
  rw [stack_eq]
  refine (concatenate_apply_piece (t := S3x128x128) (0 : Fin 3)
    [⟨S1x128x128, broadcastInDim S1x128x128 ![1, 2] bcast_S128x128_S1x128x128_1_2 (m ((c : Thread nD τ).loc main_arg7))⟩,
     ⟨S1x128x128, broadcastInDim S1x128x128 ![1, 2] bcast_S128x128_S1x128x128_1_2 (m ((c : Thread nD τ).loc main_arg8))⟩,
     ⟨S1x128x128, broadcastInDim S1x128x128 ![1, 2] bcast_S128x128_S1x128x128_1_2 (m ((c : Thread nD τ).loc main_arg9))⟩]
    concatenates_S1x128x128_S1x128x128_S1x128x128_S3x128x128_d0 (ix3 (1 : Fin 3) k d)
    1 (by show (1 : ℕ) < 3; omega) S1x128x128 _ rfl rfl 1 rfl (ix3 (0 : Fin 1) k d) ?_ rfl).trans ?_
  · intro b hb
    match b with
    | ⟨0, _⟩ => exact absurd rfl hb
    | ⟨1, _⟩ => rfl
    | ⟨2, _⟩ => rfl
  · exact broadcastInDim_apply _ _ _ _ (ix2 k d) (fun a => by match a with | ⟨0, _⟩ => rfl | ⟨1, _⟩ => rfl)

theorem stack_at2 (c : Dev nD) (k d : Fin 128) :
    (W1 m ρ c (Proc.devRef .tc main_v3) : S3x128x128.Idx → EReal) (ix3 (2 : Fin 3) k d)
      = (m ((c : Thread nD τ).loc main_arg9) : S128x128.Idx → EReal) (ix2 k d) := by
  rw [stack_eq]
  refine (concatenate_apply_piece (t := S3x128x128) (0 : Fin 3)
    [⟨S1x128x128, broadcastInDim S1x128x128 ![1, 2] bcast_S128x128_S1x128x128_1_2 (m ((c : Thread nD τ).loc main_arg7))⟩,
     ⟨S1x128x128, broadcastInDim S1x128x128 ![1, 2] bcast_S128x128_S1x128x128_1_2 (m ((c : Thread nD τ).loc main_arg8))⟩,
     ⟨S1x128x128, broadcastInDim S1x128x128 ![1, 2] bcast_S128x128_S1x128x128_1_2 (m ((c : Thread nD τ).loc main_arg9))⟩]
    concatenates_S1x128x128_S1x128x128_S1x128x128_S3x128x128_d0 (ix3 (2 : Fin 3) k d)
    2 (by show (2 : ℕ) < 3; omega) S1x128x128 _ rfl rfl 2 rfl (ix3 (0 : Fin 1) k d) ?_ rfl).trans ?_
  · intro b hb
    match b with
    | ⟨0, _⟩ => exact absurd rfl hb
    | ⟨1, _⟩ => rfl
    | ⟨2, _⟩ => rfl
  · exact broadcastInDim_apply _ _ _ _ (ix2 k d) (fun a => by match a with | ⟨0, _⟩ => rfl | ⟨1, _⟩ => rfl)

/-! ## Each relation's projected features -/

theorem lidx0_ix2 (n : Fin 50000) (d k : Fin 128) : Cert.ReferenceIdeal.Read.lidx_main_v13 (ix2 n d) k = ix2 n k :=
  funext fun a => by match a with | ⟨0, _⟩ => rfl | ⟨1, _⟩ => rfl
theorem ridx0_ix2 (n : Fin 50000) (d k : Fin 128) : Cert.ReferenceIdeal.Read.ridx_main_v13 (ix2 n d) k = ix2 k d :=
  funext fun a => by match a with | ⟨0, _⟩ => rfl | ⟨1, _⟩ => rfl

/-- Relation 0's slice of the stacked projection is the reference's product of the features with W_0. -/
theorem slice0_eq (c : Dev nD) : sliceOf (W2 m ρ c (Proc.devRef .tc main_v4)) ![0, 0, 0] slices_S3x50000x128_S1x50000x128_0_0_0
    = Cert.ReferenceIdeal.Read.val_main_v13 (F := Ideal) (m ((c : Thread nD τ).loc main_arg0)) (m ((c : Thread nD τ).loc main_arg7)) := by
  funext i
  obtain ⟨n, d, rfl⟩ : ∃ (n : Fin 50000) (d : Fin 128), i = ix2 n d := ⟨i 0, i 1, eq_ix2 i⟩
  rw [Cert.ReferenceIdeal.Read.val_main_v13_apply]
  unfold sliceOf
  refine (shapeCast_dropUnit_apply ![50000, 128] _ _ (ix2 n d)).trans ?_
  refine (extractStridedSlice_apply _ _ _ _ (ix3 (0 : Fin 3) n d) (fun a => by
    match a with
    | ⟨0, _⟩ => rfl
    | ⟨1, _⟩ => exact (Nat.zero_add _).symm
    | ⟨2, _⟩ => exact (Nat.zero_add _).symm)).trans ?_
  refine (congrFun (W2_arr m ρ c 2) _).trans ?_
  refine (Cert.KernelIdeal.Value0.final0_at (V1 m ρ) c 0 n d).trans ?_
  refine Finset.sum_congr (M := EReal) rfl fun k _ => ?_
  rw [lidx0_ix2, ridx0_ix2]
  exact congrArg₂ (fun a b : EReal => a * b) (congrFun (W1_arg m ρ c main_arg0 (by decide)) (ix2 n k)) (stack_at0 m ρ c k d)

theorem lidx1_ix2 (n : Fin 50000) (d k : Fin 128) : Cert.ReferenceIdeal.Read.lidx_main_v54 (ix2 n d) k = ix2 n k :=
  funext fun a => by match a with | ⟨0, _⟩ => rfl | ⟨1, _⟩ => rfl
theorem ridx1_ix2 (n : Fin 50000) (d k : Fin 128) : Cert.ReferenceIdeal.Read.ridx_main_v54 (ix2 n d) k = ix2 k d :=
  funext fun a => by match a with | ⟨0, _⟩ => rfl | ⟨1, _⟩ => rfl

/-- Relation 1's slice of the stacked projection is the reference's product of the features with W_1. -/
theorem slice1_eq (c : Dev nD) : sliceOf (W2 m ρ c (Proc.devRef .tc main_v4)) ![1, 0, 0] slices_S3x50000x128_S1x50000x128_1_0_0
    = Cert.ReferenceIdeal.Read.val_main_v54 (F := Ideal) (m ((c : Thread nD τ).loc main_arg0)) (m ((c : Thread nD τ).loc main_arg8)) := by
  funext i
  obtain ⟨n, d, rfl⟩ : ∃ (n : Fin 50000) (d : Fin 128), i = ix2 n d := ⟨i 0, i 1, eq_ix2 i⟩
  rw [Cert.ReferenceIdeal.Read.val_main_v54_apply]
  unfold sliceOf
  refine (shapeCast_dropUnit_apply ![50000, 128] _ _ (ix2 n d)).trans ?_
  refine (extractStridedSlice_apply _ _ _ _ (ix3 (1 : Fin 3) n d) (fun a => by
    match a with
    | ⟨0, _⟩ => rfl
    | ⟨1, _⟩ => exact (Nat.zero_add _).symm
    | ⟨2, _⟩ => exact (Nat.zero_add _).symm)).trans ?_
  refine (congrFun (W2_arr m ρ c 2) _).trans ?_
  refine (Cert.KernelIdeal.Value0.final0_at (V1 m ρ) c 1 n d).trans ?_
  refine Finset.sum_congr (M := EReal) rfl fun k _ => ?_
  rw [lidx1_ix2, ridx1_ix2]
  exact congrArg₂ (fun a b : EReal => a * b) (congrFun (W1_arg m ρ c main_arg0 (by decide)) (ix2 n k)) (stack_at1 m ρ c k d)

theorem lidx2_ix2 (n : Fin 50000) (d k : Fin 128) : Cert.ReferenceIdeal.Read.lidx_main_v95 (ix2 n d) k = ix2 n k :=
  funext fun a => by match a with | ⟨0, _⟩ => rfl | ⟨1, _⟩ => rfl
theorem ridx2_ix2 (n : Fin 50000) (d k : Fin 128) : Cert.ReferenceIdeal.Read.ridx_main_v95 (ix2 n d) k = ix2 k d :=
  funext fun a => by match a with | ⟨0, _⟩ => rfl | ⟨1, _⟩ => rfl

/-- Relation 2's slice of the stacked projection is the reference's product of the features with W_2. -/
theorem slice2_eq (c : Dev nD) : sliceOf (W2 m ρ c (Proc.devRef .tc main_v4)) ![2, 0, 0] slices_S3x50000x128_S1x50000x128_2_0_0
    = Cert.ReferenceIdeal.Read.val_main_v95 (F := Ideal) (m ((c : Thread nD τ).loc main_arg0)) (m ((c : Thread nD τ).loc main_arg9)) := by
  funext i
  obtain ⟨n, d, rfl⟩ : ∃ (n : Fin 50000) (d : Fin 128), i = ix2 n d := ⟨i 0, i 1, eq_ix2 i⟩
  rw [Cert.ReferenceIdeal.Read.val_main_v95_apply]
  unfold sliceOf
  refine (shapeCast_dropUnit_apply ![50000, 128] _ _ (ix2 n d)).trans ?_
  refine (extractStridedSlice_apply _ _ _ _ (ix3 (2 : Fin 3) n d) (fun a => by
    match a with
    | ⟨0, _⟩ => rfl
    | ⟨1, _⟩ => exact (Nat.zero_add _).symm
    | ⟨2, _⟩ => exact (Nat.zero_add _).symm)).trans ?_
  refine (congrFun (W2_arr m ρ c 2) _).trans ?_
  refine (Cert.KernelIdeal.Value0.final0_at (V1 m ρ) c 2 n d).trans ?_
  refine Finset.sum_congr (M := EReal) rfl fun k _ => ?_
  rw [lidx2_ix2, ridx2_ix2]
  exact congrArg₂ (fun a b : EReal => a * b) (congrFun (W1_arg m ρ c main_arg0 (by decide)) (ix2 n k)) (stack_at2 m ρ c k d)

/-! ## The result -/

/-- The kernel program's result array is the reference's last stage of the same argument arrays. -/
theorem result_eq (c : Dev nD) : W6 m ρ c (Proc.devRef .tc main_v113)
    = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨p, q, rfl⟩ : ∃ (p : Fin 50000) (q : Fin 128), i = ix2 p q := ⟨i 0, i 1, eq_ix2 i⟩
  rw [Cert.RefSide.ref_at]
  rw [show W6 m ρ c (Proc.devRef .tc main_v113) = (dat1 (V5 m ρ) c).arrAt 9 cfg1.N from W6_arr m ρ c 9]
  refine (Cert.KernelIdeal.Value1.final1_at (V5 m ρ) c p q).trans ?_
  have a0 : (V5 m ρ c main_v43 : S50000x128.Idx → EReal) (ix2 p q)
      = Cert.ReferenceIdeal.Read.val_main_v33 (F := Ideal) (m ((c : Thread nD τ).loc main_arg0)) (m ((c : Thread nD τ).loc main_arg1)) (m ((c : Thread nD τ).loc main_arg2)) (m ((c : Thread nD τ).loc main_arg7)) (ix2 p q) := by
    show (W5 m ρ c (Proc.devRef .tc main_v43) : S50000x128.Idx → EReal) (ix2 p q) = _
    rw [agg0_eq, slice0_eq, ← ref_agg0]
  have n0 : (V5 m ρ c main_v110 : S50000x1.Idx → EReal) (ix2 p (0 : Fin 1))
      = Cert.ReferenceIdeal.Read.val_main_v12 (F := Ideal) (m ((c : Thread nD τ).loc main_arg2)) (ix1 p) := by
    show (W5 m ρ c (Proc.devRef .tc main_v110) : S50000x1.Idx → EReal) (ix2 p (0 : Fin 1)) = _
    rw [nd0_eq, ref_deg]
    exact Cert.Lib.Columns.shapeCast_a_a1_apply _ _ p 0
  have b0 : (V5 m ρ c main_arg10 : S128.Idx → EReal) (ix1 q) = (m ((c : Thread nD τ).loc main_arg10) : S128.Idx → EReal) (ix1 q) :=
    congrFun (W5_arg m ρ c main_arg10 (by decide) (by decide)) (ix1 q)
  have a1 : (V5 m ρ c main_v76 : S50000x128.Idx → EReal) (ix2 p q)
      = Cert.ReferenceIdeal.Read.val_main_v74 (F := Ideal) (m ((c : Thread nD τ).loc main_arg0)) (m ((c : Thread nD τ).loc main_arg3)) (m ((c : Thread nD τ).loc main_arg4)) (m ((c : Thread nD τ).loc main_arg8)) (ix2 p q) := by
    show (W5 m ρ c (Proc.devRef .tc main_v76) : S50000x128.Idx → EReal) (ix2 p q) = _
    rw [agg1_eq, slice1_eq, ← ref_agg1]
  have n1 : (V5 m ρ c main_v111 : S50000x1.Idx → EReal) (ix2 p (0 : Fin 1))
      = Cert.ReferenceIdeal.Read.val_main_v53 (F := Ideal) (m ((c : Thread nD τ).loc main_arg4)) (ix1 p) := by
    show (W5 m ρ c (Proc.devRef .tc main_v111) : S50000x1.Idx → EReal) (ix2 p (0 : Fin 1)) = _
    rw [nd1_eq, ref_deg1]
    exact Cert.Lib.Columns.shapeCast_a_a1_apply _ _ p 0
  have b1 : (V5 m ρ c main_arg11 : S128.Idx → EReal) (ix1 q) = (m ((c : Thread nD τ).loc main_arg11) : S128.Idx → EReal) (ix1 q) :=
    congrFun (W5_arg m ρ c main_arg11 (by decide) (by decide)) (ix1 q)
  have a2 : (V5 m ρ c main_v109 : S50000x128.Idx → EReal) (ix2 p q)
      = Cert.ReferenceIdeal.Read.val_main_v115 (F := Ideal) (m ((c : Thread nD τ).loc main_arg0)) (m ((c : Thread nD τ).loc main_arg5)) (m ((c : Thread nD τ).loc main_arg6)) (m ((c : Thread nD τ).loc main_arg9)) (ix2 p q) := by
    show (W5 m ρ c (Proc.devRef .tc main_v109) : S50000x128.Idx → EReal) (ix2 p q) = _
    rw [agg2_eq, slice2_eq, ← ref_agg2]
  have n2 : (V5 m ρ c main_v112 : S50000x1.Idx → EReal) (ix2 p (0 : Fin 1))
      = Cert.ReferenceIdeal.Read.val_main_v94 (F := Ideal) (m ((c : Thread nD τ).loc main_arg6)) (ix1 p) := by
    show (W5 m ρ c (Proc.devRef .tc main_v112) : S50000x1.Idx → EReal) (ix2 p (0 : Fin 1)) = _
    rw [nd2_eq, ref_deg2]
    exact Cert.Lib.Columns.shapeCast_a_a1_apply _ _ p 0
  have b2 : (V5 m ρ c main_arg12 : S128.Idx → EReal) (ix1 q) = (m ((c : Thread nD τ).loc main_arg12) : S128.Idx → EReal) (ix1 q) :=
    congrFun (W5_arg m ρ c main_arg12 (by decide) (by decide)) (ix1 q)
  rw [a0, n0, b0, a1, n1, b1, a2, n2, b2]

end Cert.Bridge

end
-- ==== Proof.lean ====
/-
  A three-relation graph convolution with mean over the relations: a projection kernel (node features
  times each relation's weight matrix), the host's gather / scale / scatter-add of the messages, and a
  combine kernel (aggregate times destination-degree factor plus bias, rectified, the three relations averaged),
  against the plain jnp layer. The claim: each program runs and leaves its arguments unchanged; the kernel's
  idealization names its constant one third; and on the extended reals the two programs return one array.

  The frames are the run of the program as a sequence of host stretches and pipelined regions (KRun / KIRun, with
  the argument arrays read back in KArgs / KIArgs). The value: the projection region's result is the product
  ∑ k, X (n, k) · W_v (k, d) for each relation v (KIValue0), which is the reference's product; the host stretch
  between the regions is the reference's own chain of operations (KIHost); the combine region's result is, at a
  node n and feature d, ((t0 + t1) + t2) · ⅓ with t_v = max (agg_v (n, d) · nd_v (n) + b_v (d)) 0 (KIValue1); and
  the reference's sum divided by three is the same extended real (RefSide, Spec), so the arrays agree (Bridge).
-/
import proofs.«179836_j46548855554716_1_alg».proof.Defs
import proofs.«179836_j46548855554716_1_alg».proof.Proof.Gen.Kernel
import proofs.«179836_j46548855554716_1_alg».proof.Proof.Gen.KernelIdeal
import proofs.«179836_j46548855554716_1_alg».proof.Proof.Gen.ReferenceIdeal
import proofs.«179836_j46548855554716_1_alg».proof.Proof.Gen.ReferenceIdeal.Run
import proofs.«179836_j46548855554716_1_alg».proof.Proof.Gen.ReferenceIdeal.Read
import proofs.«179836_j46548855554716_1_alg».proof.Proof.Gen.Pre_finite_inputs
import proofs.«179836_j46548855554716_1_alg».proof.Proof.KArgs
import proofs.«179836_j46548855554716_1_alg».proof.Proof.KIArgs
import proofs.«179836_j46548855554716_1_alg».proof.Proof.Bridge
import Idealize.ShloMosaic.PureOps.IdealRules
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass's one rewrite: the kernel's literal 0.3333333432674408 is named "inv_3", which the table reads as
    the real number one third. -/
theorem preserves : Cert.preserves_Kernel_KernelIdeal :=
  IdealRules.named_const.statement Cert.KernelIdeal.κ "inv_3" .f32 0x3EAAAAAB#32 ((1 / 3 : ℝ) : EReal) rfl

/-- From memories that agree on the arguments the two idealized programs end with one result array: the kernel
    program's is the last boundary's contents of its output buffer, the reference's its last stage, and the two are
    one function of the arguments (`Cert.Bridge.result_eq`). -/
theorem algebraic : Cert.algebraic_KernelIdeal_ReferenceIdeal := by
  intro m ρ m' ρ' _ hagree
  refine ⟨fun c => Cert.KernelIdeal.Hand.W6 (F := Ideal) m ρ c (Proc.devRef .tc Cert.KernelIdeal.main_v113),
    Cert.KernelIdeal.Hand.run_val m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v126_eq, h0, h1, h2, h3, h4, h5, h6, h7, h8, h9, h10, h11, h12]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
